-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x6 : S_.BroadcastsInDim S128x6 (![] : Fin 0 → Fin S128x6.rank)
  reducesTo_S128x6_S_d0_1 : S128x6.ReducesTo [0, 1] S_
  bcast_S_S6 : S_.BroadcastsInDim S6 (![] : Fin 0 → Fin S6.rank)
  reducesTo_S6_S_d0 : S6.ReducesTo [0] S_

variable [Facts]

def fn_part3 {F : FTy → Type} [FloatOps F] (main_v48 : IVec S_ 1) (main_v49 : FVec F S6 .f32) (main_v50 : FVec F S6 .f32) : IVec S_ 1 :=
  let main_v51 : IVec S6 1 := cmpf .olt main_v49 main_v50
  let main_c_19 : IVec S_ 1 := constantI S_ 1 1#1
  let main_v52 : IVec S_ 1 := (fun x v => Host.reduce IntOp.andi x v reducesTo_S6_S_d0 h_S_) main_v51 main_c_19
  let main_v53 : IVec S_ 1 := andi main_v48 main_v52
  main_v53

def fn_part2 {F : FTy → Type} [FloatOps F] (main_arg9 : FVec F S128x128 .f32) (main_arg10 : FVec F S128 .f32) (main_arg11 : FVec F S128x6 .f32) (main_arg12 : FVec F S6 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x6 .f32 := Host.absf main_arg11
  let main_cst_16 : FVec F S_ .f32 := constant S_ .f32 0x7F800000#32
  let main_v45 : FVec F S128x6 .f32 := broadcastInDim S128x6 ![] bcast_S_S128x6 main_cst_16
  let main_v46 : IVec S128x6 1 := cmpf .olt main_v44 main_v45
  let main_c_17 : IVec S_ 1 := constantI S_ 1 1#1
  let main_v47 : IVec S_ 1 := (fun x v => Host.reduce IntOp.andi x v reducesTo_S128x6_S_d0_1 h_S_) main_v46 main_c_17
  let main_v48 : IVec S_ 1 := andi main_v43 main_v47
  let main_v49 : FVec F S6 .f32 := Host.absf main_arg12
  let main_cst_18 : FVec F S_ .f32 := constant S_ .f32 0x7F800000#32
  let main_v50 : FVec F S6 .f32 := broadcastInDim S6 ![] bcast_S_S6 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128x128 .f32) (main_arg10 : FVec F S128 .f32) (main_arg11 : FVec F S128x6 .f32) (main_arg12 : FVec F S6 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x128 .f32) (main_arg10 : FVec F S128 .f32) (main_arg11 : FVec F S128x6 .f32) (main_arg12 : FVec F S6 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S4000x128 : Shape := ⟨2, ![4000, 128]⟩
abbrev S1x128 : Shape := ⟨2, ![1, 128]⟩
abbrev S100000x6 : Shape := ⟨2, ![100000, 6]⟩
abbrev S4000x6 : Shape := ⟨2, ![4000, 6]⟩
abbrev S1000x6 : Shape := ⟨2, ![1000, 6]⟩
abbrev S100000x1 : Shape := ⟨2, ![100000, 1]⟩
abbrev S1000x1 : Shape := ⟨2, ![1000, 1]⟩
abbrev S1x6 : Shape := ⟨2, ![1, 6]⟩

abbrev nBuf : Space → Nat
  | .hbm => 71
  | .vmem => 21
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x6, .f32⟩
  | .hbm, ⟨12, _⟩ => ⟨S6, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S128x128, .bf16⟩
  | .hbm, ⟨18, _⟩ => ⟨S128x128, .bf16⟩
  | .hbm, ⟨19, _⟩ => ⟨S128x128, .bf16⟩
  | .hbm, ⟨20, _⟩ => ⟨S128x128, .bf16⟩
  | .hbm, ⟨21, _⟩ => ⟨S128x6, .bf16⟩
  | .hbm, ⟨22, _⟩ => ⟨S100000x128, .bf16⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .bf16⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x128, .bf16⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .bf16⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x6, .f32⟩
  | .hbm, ⟨53, _⟩ => ⟨S_, .f32⟩
  | .hbm, ⟨54, _⟩ => ⟨S1000x6, .f32⟩
  | .hbm, ⟨55, _⟩ => ⟨S100000x1, .i32⟩
  | .hbm, ⟨56, _⟩ => ⟨S1000x6, .f32⟩
  | .hbm, ⟨57, _⟩ => ⟨S_, .f32⟩
  | .hbm, ⟨58, _⟩ => ⟨S100000x1, .f32⟩
  | .hbm, ⟨59, _⟩ => ⟨S_, .f32⟩
  | .hbm, ⟨60, _⟩ => ⟨S1000x1, .f32⟩
  | .hbm, ⟨61, _⟩ => ⟨S100000x1, .i32⟩
  | .hbm, ⟨62, _⟩ => ⟨S1000x1, .f32⟩
  | .hbm, ⟨63, _⟩ => ⟨S_, .f32⟩
  | .hbm, ⟨64, _⟩ => ⟨S1000x1, .f32⟩
  | .hbm, ⟨65, _⟩ => ⟨S1000x1, .f32⟩
  | .hbm, ⟨66, _⟩ => ⟨S1000x6, .f32⟩
  | .hbm, ⟨67, _⟩ => ⟨S1000x6, .f32⟩
  | .hbm, ⟨68, _⟩ => ⟨S1x6, .f32⟩
  | .hbm, ⟨69, _⟩ => ⟨S1000x6, .f32⟩
  | .hbm, ⟨70, _⟩ => ⟨S1000x6, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S4000x128, .bf16⟩
  | .local _ .vmem, ⟨9, _⟩ => ⟨S4000x128, .bf16⟩
  | .local _ .vmem, ⟨10, _⟩ => ⟨S4000x128, .bf16⟩
  | .local _ .vmem, ⟨11, _⟩ => ⟨S4000x128, .bf16⟩
  | .local _ .vmem, ⟨12, _⟩ => ⟨S4000x128, .f32⟩
  | .local _ .vmem, ⟨13, _⟩ => ⟨S4000x128, .f32⟩
  | .local _ .vmem, ⟨14, _⟩ => ⟨S128x128, .bf16⟩
  | .local _ .vmem, ⟨15, _⟩ => ⟨S128, .f32⟩
  | .local _ .vmem, ⟨16, _⟩ => ⟨S128x128, .bf16⟩
  | .local _ .vmem, ⟨17, _⟩ => ⟨S128, .f32⟩
  | .local _ .vmem, ⟨18, _⟩ => ⟨S128x6, .bf16⟩
  | .local _ .vmem, ⟨19, _⟩ => ⟨S4000x6, .f32⟩
  | .local _ .vmem, ⟨20, _⟩ => ⟨S4000x6, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_1 : Ref sig .tc := ⟨.hbm, 38, rfl⟩
abbrev main_v22 : Ref sig .tc := ⟨.hbm, 39, rfl⟩
abbrev main_v23 : Ref sig .tc := ⟨.hbm, 40, rfl⟩
abbrev main_c_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_3 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg7_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x6 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x6 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bitsLt_bf16_f32 : FTy.bits .bf16 < FTy.bits .f32
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  inb_S128x6_S128x6_0_0 : ∀ a, (![0, 0] : Fin 2 → Nat) a + S128x6.size a ≤ S128x6.size a
  h_S128x6 : 0 < S128x6.numel
  shapeCasts_S128x6_S128x6 : S128x6.ShapeCasts S128x6
  inb_S4000x6_S4000x6_0_0 : ∀ a, (![0, 0] : Fin 2 → Nat) a + S4000x6.size a ≤ S4000x6.size a
  h_S4000x6 : 0 < S4000x6.numel
  bcast_S_S1000x6 : S_.BroadcastsInDim S1000x6 (![] : Fin 0 → Fin S1000x6.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S1000x1 : S_.BroadcastsInDim S1000x1 (![] : Fin 0 → Fin S1000x1.rank)
  bcast_S1000x1_S1000x6_0_1 : S1000x1.BroadcastsInDim S1000x6 (![0, 1] : Fin 2 → Fin S1000x6.rank)
  bcast_S6_S1x6_1 : S6.BroadcastsInDim S1x6 (![1] : Fin 1 → Fin S1x6.rank)
  bcast_S1x6_S1000x6_0_1 : S1x6.BroadcastsInDim S1000x6 (![0, 1] : Fin 2 → Fin S1000x6.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x6_S4000x6_1_0_0_1_n_n_wf : DotDims.WF S4000x128 S128x6 S4000x6 [1] [0] [0] [1] [] []
  scatter_S1000x6_S100000x1_S100000x6_1_0_0_1_wf : ScatterDims.WF S1000x6 S100000x1 S100000x6 [1] [0] [0] 1
  scatter_S1000x1_S100000x1_S100000x1_1_0_0_1_wf : ScatterDims.WF S1000x1 S100000x1 S100000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .bf16 = 32 ∨ (Rect.block (s := S100000x128) S4000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x6.size a ≤ S128x6.size a
  hwx1_6 : ∀ i : grid1.Coords, EltTy.bits .bf16 = 32 ∨ (Rect.block (s := S128x6) S128x6.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x6.size a ≤ S100000x6.size a
  hwx1_7 : ∀ i : grid1.Coords, EltTy.bits .f32 = 32 ∨ (Rect.block (s := S100000x6) S4000x6.size (cc1_transform_7 i) (hinb1_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x6_S4000x6_1_0_0_1_n_n : DotDims S4000x128 S128x6 S4000x6 where
  lhsContracting := [1]
  rhsContracting := [0]
  lhsNonContracting := [0]
  rhsNonContracting := [1]
  lhsBatch := []
  rhsBatch := []
  wf := dot_S4000x128_S128x6_S4000x6_1_0_0_1_n_n_wf
def scatter_S1000x6_S100000x1_S100000x6_1_0_0_1 : ScatterDims S1000x6 S100000x1 S100000x6 where
  updateWindowDims := [1]
  insertedWindowDims := [0]
  scatterDimsToOperandDims := [0]
  indexVectorDim := 1
  wf := scatter_S1000x6_S100000x1_S100000x6_1_0_0_1_wf
def scatter_S1000x1_S100000x1_S100000x1_1_0_0_1 : ScatterDims S1000x1 S100000x1 S100000x1 where
  updateWindowDims := [1]
  insertedWindowDims := [0]
  scatterDimsToOperandDims := [0]
  indexVectorDim := 1
  wf := scatter_S1000x1_S100000x1_S100000x1_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v21) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S128x6.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v33) S4000x6.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x6 : Shape := ⟨2, ![128, 6]⟩
abbrev S6 : Shape := ⟨1, ![6]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S1000x128 : Shape := ⟨2, ![1000, 128]⟩
abbrev S100000x1 : Shape := ⟨2, ![100000, 1]⟩
abbrev S1000x1 : Shape := ⟨2, ![1000, 1]⟩
abbrev S1000x6 : Shape := ⟨2, ![1000, 6]⟩
abbrev S1x6 : Shape := ⟨2, ![1, 6]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x6, .f32⟩
  | .hbm, ⟨12, _⟩ => ⟨S6, .f32⟩
  | .hbm, ⟨13, _⟩ => ⟨S1x1600000, .i32⟩
  | .hbm, ⟨14, _⟩ => ⟨S1600000, .i32⟩
  | .hbm, ⟨15, _⟩ => ⟨S1x1600000, .i32⟩
  | .hbm, ⟨16, _⟩ => ⟨S1600000, .i32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S1x128, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x128, .f32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S100000x128, .f32⟩
  | .hbm, ⟨65, _⟩ => ⟨S100000x128, .f32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S_, .f32⟩
  | .hbm, ⟨71, _⟩ => ⟨S1000x128, .f32⟩
  | .hbm, ⟨72, _⟩ => ⟨S100000x1, .i32⟩
  | .hbm, ⟨73, _⟩ => ⟨S1000x128, .f32⟩
  | .hbm, ⟨74, _⟩ => ⟨S_, .f32⟩
  | .hbm, ⟨75, _⟩ => ⟨S100000x1, .f32⟩
  | .hbm, ⟨76, _⟩ => ⟨S_, .f32⟩
  | .hbm, ⟨77, _⟩ => ⟨S1000x1, .f32⟩
  | .hbm, ⟨78, _⟩ => ⟨S100000x1, .i32⟩
  | .hbm, ⟨79, _⟩ => ⟨S1000x1, .f32⟩
  | .hbm, ⟨80, _⟩ => ⟨S_, .f32⟩
  | .hbm, ⟨81, _⟩ => ⟨S1000x1, .f32⟩
  | .hbm, ⟨82, _⟩ => ⟨S1000x1, .f32⟩
  | .hbm, ⟨83, _⟩ => ⟨S1000x128, .f32⟩
  | .hbm, ⟨84, _⟩ => ⟨S1000x128, .f32⟩
  | .hbm, ⟨85, _⟩ => ⟨S1000x6, .f32⟩
  | .hbm, ⟨86, _⟩ => ⟨S1x6, .f32⟩
  | .hbm, ⟨87, _⟩ => ⟨S1000x6, .f32⟩
  | .hbm, ⟨88, _⟩ => ⟨S1000x6, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_c_3 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_7 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_8 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1000x128 : S_.BroadcastsInDim S1000x128 (![] : Fin 0 → Fin S1000x128.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S1000x1 : S_.BroadcastsInDim S1000x1 (![] : Fin 0 → Fin S1000x1.rank)
  bcast_S1000x1_S1000x128_0_1 : S1000x1.BroadcastsInDim S1000x128 (![0, 1] : Fin 2 → Fin S1000x128.rank)
  bcast_S6_S1x6_1 : S6.BroadcastsInDim S1x6 (![1] : Fin 1 → Fin S1x6.rank)
  bcast_S1x6_S1000x6_0_1 : S1x6.BroadcastsInDim S1000x6 (![0, 1] : Fin 2 → Fin S1000x6.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S1000x128_S100000x1_S100000x128_1_0_0_1_wf : ScatterDims.WF S1000x128 S100000x1 S100000x128 [1] [0] [0] 1
  scatter_S1000x1_S100000x1_S100000x1_1_0_0_1_wf : ScatterDims.WF S1000x1 S100000x1 S100000x1 [1] [0] [0] 1
  dot_S1000x128_S128x6_S1000x6_1_0_0_1_n_n_wf : DotDims.WF S1000x128 S128x6 S1000x6 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S1000x128_S100000x1_S100000x128_1_0_0_1 : ScatterDims S1000x128 S100000x1 S100000x128 where
  updateWindowDims := [1]
  insertedWindowDims := [0]
  scatterDimsToOperandDims := [0]
  indexVectorDim := 1
  wf := scatter_S1000x128_S100000x1_S100000x128_1_0_0_1_wf
def scatter_S1000x1_S100000x1_S100000x1_1_0_0_1 : ScatterDims S1000x1 S100000x1 S100000x1 where
  updateWindowDims := [1]
  insertedWindowDims := [0]
  scatterDimsToOperandDims := [0]
  indexVectorDim := 1
  wf := scatter_S1000x1_S100000x1_S100000x1_1_0_0_1_wf
def dot_S1000x128_S128x6_S1000x6_1_0_0_1_n_n : DotDims S1000x128 S128x6 S1000x6 where
  lhsContracting := [1]
  rhsContracting := [0]
  lhsNonContracting := [0]
  rhsNonContracting := [1]
  lhsBatch := []
  rhsBatch := []
  wf := dot_S1000x128_S128x6_S1000x6_1_0_0_1_n_n_wf

class Facts : Prop extends Facts₀ where

variable [Facts]
-- ==== Proof.Reals.lean ====
/-
  Extended reals that are reals, and the one law that joins the two programs.

  An extended real is REAL when it is the image of a real number. Sums, products and maxima of reals are real, so a
  network fed real numbers computes real numbers. Over the reals a mean commutes with a linear map: for a finite set
  `T` of nodes, features `h n e`, weights `w e` and a nonzero real count `c`,
      ∑ₑ ((∑_{n ∈ T} h n e) / c) · w e = (∑_{n ∈ T} ∑ₑ h n e · w e) / c .
  On the extended reals this fails at infinities (a sum `⊤ + ⊥`, a product with a negative weight), which is why the
  features and weights are asked to be real.
-/
import Idealize.ShloMosaic.PureOps.Ideal.Laws

noncomputable section

namespace Cert.Gin

open Idealize.ShloMosaic

/-- The extended real `a` is (the image of) a real number. -/
def IsReal (a : EReal) : Prop := ∃ r : ℝ, a = (r : EReal)

theorem IsReal.zero : IsReal 0 := ⟨0, rfl⟩

theorem IsReal.coe (r : ℝ) : IsReal (r : EReal) := ⟨r, rfl⟩

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.max {a b : EReal} (ha : IsReal a) (hb : IsReal b) : IsReal (max a b) := by
  obtain ⟨r, rfl⟩ := ha; obtain ⟨s, rfl⟩ := hb
  rcases le_total r s with h | h
  · exact ⟨s, max_eq_right (EReal.coe_le_coe_iff.2 h)⟩
  · exact ⟨r, max_eq_left (EReal.coe_le_coe_iff.2 h)⟩

theorem IsReal.sum {ι : Type} (s : Finset ι) (f : ι → EReal) (h : ∀ i ∈ s, IsReal (f i)) : IsReal (∑ i ∈ s, f i) :=
  Finset.sum_induction f IsReal (fun _ _ => IsReal.add) IsReal.zero h

/-- The image of a finite real sum is the sum of the images. -/
theorem coe_sum {ι : Type} (s : Finset ι) (g : ι → ℝ) : ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- `k` ones added up make the real `k`. -/
theorem sum_ones {ι : Type} (s : Finset ι) : (∑ _i ∈ s, (1 : EReal)) = ((s.card : ℝ) : EReal) := by
  have h : (∑ _i ∈ s, (1 : EReal)) = ∑ _i ∈ s, ((1 : ℝ) : EReal) := rfl
  rw [h, ← coe_sum]; simp

/-- A count, never let below one: a real, and not zero. -/
theorem count_real {ι : Type} (s : Finset ι) :
    max (0 + ∑ _i ∈ s, (1 : EReal)) 1 = ((max (s.card : ℝ) 1 : ℝ) : EReal) ∧ (max (s.card : ℝ) 1 : ℝ) ≠ 0 := by
  refine ⟨?_, ne_of_gt (lt_of_lt_of_le one_pos (le_max_right _ _))⟩
  rw [zero_add, sum_ones]
  rcases le_total (s.card : ℝ) 1 with h | h
  · rw [max_eq_right h]; exact max_eq_right (by exact_mod_cast h)
  · rw [max_eq_left h]; exact max_eq_left (by exact_mod_cast h)

/-- THE LAW: over real features and weights and a nonzero real count, projecting each node and then averaging the group is
    averaging the group and then projecting. -/
theorem mean_proj {ι κ : Type} [Fintype κ] (T : Finset ι) (h : ι → κ → EReal) (w : κ → EReal) (c : ℝ) (hc : c ≠ 0)
    (hh : ∀ n e, IsReal (h n e)) (hw : ∀ e, IsReal (w e)) :
    Ideal.div (0 + ∑ n ∈ T, ∑ e, h n e * w e) (c : EReal)
      = ∑ e, Ideal.div (0 + ∑ n ∈ T, h n e) (c : EReal) * w e := by
  choose hr hhr using hh
  choose wr hwr using hw
  simp only [hhr, hwr, Ideal.div_coe hc, zero_add, ← EReal.coe_mul, ← coe_sum]
  refine congrArg _ ?_
  rw [Finset.sum_comm, Finset.sum_mul]
  refine Finset.sum_congr rfl fun e _ => ?_
  rw [Finset.sum_mul, Finset.sum_mul, Finset.sum_mul]
  refine Finset.sum_congr rfl fun n _ => ?_
  ring

end Cert.Gin

end
-- ==== Proof.Finite.lean ====
/-
  Finite inputs are real.

  The precondition says of each float argument `x` that `|x| < +∞` holds at every entry (an `all` over the array, the
  eleven of them joined by `and`). On the extended reals `|x| = max x (−x)` is below `+∞` exactly when `x` is neither
  infinity, that is, when `x` is a real number. So under the precondition every float argument is an array of reals.
-/
import proofs.«103897_j22316650070138_2_alg».proof.Pre_finite_inputs
import proofs.«103897_j22316650070138_2_alg».proof.Proof.Gen.Pre_finite_inputs
import proofs.«103897_j22316650070138_2_alg».proof.Proof.Reals
import Idealize.ShloMosaic.Lib.ReduceAll
import Idealize.ShloMosaic.Lib.ValueIdx

noncomputable section

namespace Cert.Gin.Finite

open Idealize.ShloMosaic Idealize.ShloMosaic.ValueIdx Cert.Pre_finite_inputs Cert.Pre_finite_inputs.Facts

/-- The word of `+∞`. -/
theorem inf_word : Ideal.ofBits .f32 0x7F800000#32 = ⊤ := by simp [Ideal.ofBits, Ideal.ieee]

/-- An extended real whose absolute value is below `+∞` is a real. -/
theorem isReal_of_abs_lt (a : EReal) (h : Ideal.cmp .olt (max a (-a)) (Ideal.ofBits .f32 0x7F800000#32) = 1#1) :
    IsReal a := by
  rw [inf_word] at h
  induction a using EReal.rec with
  | bot => simp [Ideal.cmp] at h
  | coe r => exact ⟨r, rfl⟩
  | top => simp [Ideal.cmp] at h

instance : Subsingleton S_.Idx := ⟨fun _ _ => funext fun d => d.elim0⟩

/-- One conjunct of the precondition: when `all (|x| < +∞)` is true, every entry of `x` is a real. -/
theorem all_real {s : Shape} {axes : List (Fin s.rank)} (x : FVec Ideal s .f32)
    (bc : S_.BroadcastsInDim s (![] : Fin 0 → Fin s.rank)) (red : s.ReducesTo axes S_) (hu : 0 < S_.numel)
    (e : Host.reduce IntOp.andi
          (cmpf .olt (Host.absf x) (broadcastInDim s ![] bc (constant (F := Ideal) S_ .f32 0x7F800000#32)))
          (constantI S_ 1 1#1) red hu ix0 = 1#1) (i : s.Idx) : IsReal (x i) :=
  isReal_of_abs_lt _ (Host.reduce_andi_all _ _ red hu ix0 e i)

/-- Under the precondition every float argument is an array of reals. -/
theorem inputs_real (x0 : FVec Ideal S100000x128 .f32) (x1 : IVec S2x1600000 32) (x2 : IVec S100000 32)
    (x3 : FVec Ideal S128x128 .f32) (x4 : FVec Ideal S128 .f32) (x5 : FVec Ideal S128x128 .f32) (x6 : FVec Ideal S128 .f32)
    (x7 : FVec Ideal S128x128 .f32) (x8 : FVec Ideal S128 .f32) (x9 : FVec Ideal S128x128 .f32) (x10 : FVec Ideal S128 .f32)
    (x11 : FVec Ideal S128x6 .f32) (x12 : FVec Ideal S6 .f32)
    (h : fn (F := Ideal) x0 x1 x2 x3 x4 x5 x6 x7 x8 x9 x10 x11 x12 = fun _ => 1#1) :
    (∀ i, IsReal (x0 i)) ∧ (∀ i, IsReal (x3 i)) ∧ (∀ i, IsReal (x4 i)) ∧ (∀ i, IsReal (x5 i)) ∧ (∀ i, IsReal (x6 i))
      ∧ (∀ i, IsReal (x7 i)) ∧ (∀ i, IsReal (x8 i)) ∧ (∀ i, IsReal (x9 i)) ∧ (∀ i, IsReal (x10 i))
      ∧ (∀ i, IsReal (x11 i)) ∧ (∀ i, IsReal (x12 i)) := by
  have h0 := congrFun h ix0
  simp only [fn, fn_part1, fn_part2, fn_part3, andi, IntOp.andi_eq_one] at h0
  obtain ⟨⟨⟨⟨⟨⟨⟨⟨⟨⟨e0, e3⟩, e4⟩, e5⟩, e6⟩, e7⟩, e8⟩, e9⟩, e10⟩, e11⟩, e12⟩ := h0
  exact ⟨all_real _ _ _ _ e0, all_real _ _ _ _ e3, all_real _ _ _ _ e4, all_real _ _ _ _ e5, all_real _ _ _ _ e6,
    all_real _ _ _ _ e7, all_real _ _ _ _ e8, all_real _ _ _ _ e9, all_real _ _ _ _ e10, all_real _ _ _ _ e11,
    all_real _ _ _ _ e12⟩

end Cert.Gin.Finite

end
-- ==== Proof.KernelRun.lean ====
/-
  The kernel program's run with its result array named.

  From any launch memory with zero counters, every weakly fair execution of the program on the TensorCores terminates
  without a fault, and in every final state core `c`'s result buffer holds the last boundary's contents at that buffer
  — the fold of the last host stretch over what the second region leaves — while each of the thirteen argument arrays
  holds what it held at launch.
-/
import proofs.«103897_j22316650070138_2_alg».proof.Proof.Gen.KernelIdeal.Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Chain

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result named: the program's segments launched from `m`; the last thread state — every unscoped
    buffer at the last boundary's contents `W5` — read against the final state. The result buffer `main_v47` is unscoped,
    so it is read like the arguments; it is left at `W5` there, the arguments are walked back to the launch memory. -/
theorem run_named : θ_run defs (onTc (τ := τ) (main (F := F))) ⟨m, fun _ => 0, ρ⟩ (fun r => ∀ c : Dev nD,
      r.2.mem ((c.tc : Thread nD τ).loc main_v47) = W5 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v47 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c)⟩)

end Cert.KernelIdeal.Chain

end
-- ==== Proof.HostChain.lean ====
/-
  The host operations around the two regions, read back to the launch memory.

  Before the first region the program slices the edge list into sources and targets, rounds the weights and the features
  to the narrower float type, gathers the features' rows at the sources (an index below zero is first moved up by the number
  of nodes) and adds them into the rows named by the targets: the neighbour sum `aggK`. Between the regions it does the same
  with the first region's output. After the second region it pools the region's output rows by the nodes' graph numbers,
  divides by the counts (never below one) and adds the bias: `tailK`. No operation writes a buffer another one's result
  lives in, so each buffer a region or the last stretch reads is one of these terms of the arguments, or an argument itself.
-/
import proofs.«103897_j22316650070138_2_alg».proof.Proof.Gen.KernelIdeal.Frame
import Idealize.ShloMosaic.Lib.StableHlo.Run
import Idealize.ShloMosaic.PureOps.Ideal.Laws

set_option maxRecDepth 16384

noncomputable section

namespace Cert.KernelIdeal.Chain

open Cert.KernelIdeal Cert.KernelIdeal.Gen Idealize.ShloMosaic Idealize.ShloMosaic.TcCoe Idealize.SL.Sem
open Idealize.ShloMosaic.StableHlo

/-! ## The two host chains, named -/

/-- The edge list's first row as a vector: the source node of each of the 1600000 edges. -/
def srcK (ei : (⟨S2x1600000, .i32⟩ : BufTy).Contents (Elt Ideal)) : (⟨S1600000, .i32⟩ : BufTy).Contents (Elt Ideal) :=
  fun i => shapeCast S1600000 (extractStridedSlice S1x1600000 ![0, 0] ei slices_S2x1600000_S1x1600000_0_0)
    shapeCasts_S1x1600000_S1600000 i

/-- The edge list's second row as a vector: the destination node of each edge. -/
def dstK (ei : (⟨S2x1600000, .i32⟩ : BufTy).Contents (Elt Ideal)) : (⟨S1600000, .i32⟩ : BufTy).Contents (Elt Ideal) :=
  fun i => shapeCast S1600000 (extractStridedSlice S1x1600000 ![1, 0] ei slices_S2x1600000_S1x1600000_1_0)
    shapeCasts_S1x1600000_S1600000 i

/-- The neighbour aggregation of the node features `h` along the edges `ei`: into an array of zeros, row `dst e`
    receives, for every edge `e`, the widened row of `h` at the edge's source (a negative source index counted from
    the end). -/
def aggK (h : (⟨S100000x128, .bf16⟩ : BufTy).Contents (Elt Ideal)) (ei : (⟨S2x1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstK ei))
    (extf .f32
      (Host.gather gather_S100000x128_S1600000x1_S1600000x128_1_0_n_n_0_1_1128 h
        (broadcastInDim S1600000x1 ![0] bcast_S1600000_S1600000x1_0
          (select
            (cmpi .slt (srcK ei) (broadcastInDim S1600000 ![] bcast_S_S1600000 (constantI S_ 32 0#32)))
            (addi (srcK ei) (broadcastInDim S1600000 ![] bcast_S_S1600000 (constantI S_ 32 100000#32)))
            (srcK ei))))
      bitsLt_bf16_f32)

/-- The per-graph readout of the node outputs `y`: the rows of `y` summed by graph (`batch` names each node's graph),
    divided by the graph's node count (at least one), plus the bias row `bl`. -/
def tailK (y : (⟨S100000x6, .f32⟩ : BufTy).Contents (Elt Ideal)) (batch : (⟨S100000, .i32⟩ : BufTy).Contents (Elt Ideal)) (bl : (⟨S6, .f32⟩ : BufTy).Contents (Elt Ideal)) :
    (⟨S1000x6, .f32⟩ : BufTy).Contents (Elt Ideal) :=
  addf
    (Host.divf
      (Host.scatterAdd scatter_S1000x6_S100000x1_S100000x6_1_0_0_1
        (broadcastInDim S1000x6 ![] bcast_S_S1000x6 (constant (F := Ideal) S_ .f32 0x00000000#32))
        (broadcastInDim S100000x1 ![0] bcast_S100000_S100000x1_0 batch)
        y)
      (broadcastInDim S1000x6 ![0, 1] bcast_S1000x1_S1000x6_0_1
        (maximumf
          (Host.scatterAdd scatter_S1000x1_S100000x1_S100000x1_1_0_0_1
            (broadcastInDim S1000x1 ![] bcast_S_S1000x1 (constant (F := Ideal) S_ .f32 0x00000000#32))
            (broadcastInDim S100000x1 ![0] bcast_S100000_S100000x1_0 batch)
            (broadcastInDim S100000x1 ![] bcast_S_S100000x1 (constant (F := Ideal) S_ .f32 0x3F800000#32)))
          (broadcastInDim S1000x1 ![] bcast_S_S1000x1 (constant (F := Ideal) S_ .f32 0x3F800000#32)))))
    (broadcastInDim S1000x6 ![0, 1] bcast_S1x6_S1000x6_0_1 (broadcastInDim S1x6 ![1] bcast_S6_S1x6_1 bl))

variable (m : (ℓ : Loc nD τ sig) → Buf (Elt Ideal) ℓ) (ρ : Dev nD → PrngReg)

/-! ## A buffer no operation of a stretch writes keeps its contents -/

/-- No operation of the stretch writes the buffer: each operation writes one buffer, a different reference. -/
macro "no_write" : tactic =>
  `(tactic| (refine List.forall_iff_forall_mem.mp ?_
             simp only [hostOps0, hostOps1, hostOps2, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

theorem W1_keep (c : Dev nD) (b : Ref sig .tc)
    (h : ∀ op ∈ (hostOps0 : List (HloOp τ sig (Elt Ideal))), (Proc.devRef .tc b : DevRef τ sig) ∉ op.writes) :
    W1 m ρ c (Proc.devRef .tc b) = m ((c.tc : Thread nD τ).loc b) :=
  StableHlo.after_of_forall_not_mem (b := Proc.devRef .tc b) _ _ h
theorem W3_keep (c : Dev nD) (b : Ref sig .tc)
    (h : ∀ op ∈ (hostOps1 : List (HloOp τ sig (Elt Ideal))), (Proc.devRef .tc b : DevRef τ sig) ∉ op.writes) :
    W3 m ρ c (Proc.devRef .tc b) = W2 m ρ c (Proc.devRef .tc b) :=
  StableHlo.after_of_forall_not_mem (b := Proc.devRef .tc b) _ _ h
theorem W5_keep (c : Dev nD) (b : Ref sig .tc)
    (h : ∀ op ∈ (hostOps2 : List (HloOp τ sig (Elt Ideal))), (Proc.devRef .tc b : DevRef τ sig) ∉ op.writes) :
    W5 m ρ c (Proc.devRef .tc b) = W4 m ρ c (Proc.devRef .tc b) :=
  StableHlo.after_of_forall_not_mem (b := Proc.devRef .tc b) _ _ h

/-! ## Region 0's entry contents (after the first host stretch) -/

theorem V1_arg0 (c : Dev nD) : V1 m ρ c main_arg0 = m ((c.tc : Thread nD τ).loc main_arg0) := W1_keep m ρ c main_arg0 (by no_write)
theorem V1_arg4 (c : Dev nD) : V1 m ρ c main_arg4 = m ((c.tc : Thread nD τ).loc main_arg4) := W1_keep m ρ c main_arg4 (by no_write)
theorem V1_arg6 (c : Dev nD) : V1 m ρ c main_arg6 = m ((c.tc : Thread nD τ).loc main_arg6) := W1_keep m ρ c main_arg6 (by no_write)

/-- The two rows of the edge list, as the first stretch leaves them. -/
theorem W1_v1 (c : Dev nD) : W1 m ρ c (Proc.devRef .tc main_v1) = srcK (m ((c.tc : Thread nD τ).loc main_arg1)) := by
  after_results_simp
  rfl
theorem W1_v3 (c : Dev nD) : W1 m ρ c (Proc.devRef .tc main_v3) = dstK (m ((c.tc : Thread nD τ).loc main_arg1)) := by
  after_results_simp
  rfl

theorem V1_v20 (c : Dev nD) :
    V1 m ρ c main_v20 = aggK (truncf (F := Ideal) .bf16 (m ((c.tc : Thread nD τ).loc main_arg0)) bitsLt_bf16_f32) (m ((c.tc : Thread nD τ).loc main_arg1)) := by
  delta V1 W1
  after_results_simp
  rfl

theorem V1_v4 (c : Dev nD) : V1 m ρ c main_v4 = truncf (F := Ideal) .bf16 (m ((c.tc : Thread nD τ).loc main_arg3)) bitsLt_bf16_f32 := by
  delta V1 W1
  after_results_simp
theorem V1_v5 (c : Dev nD) : V1 m ρ c main_v5 = truncf (F := Ideal) .bf16 (m ((c.tc : Thread nD τ).loc main_arg5)) bitsLt_bf16_f32 := by
  delta V1 W1
  after_results_simp

/-- The second region's weights, narrowed by the first stretch. -/
theorem W1_v6 (c : Dev nD) : W1 m ρ c (Proc.devRef .tc main_v6) = truncf (F := Ideal) .bf16 (m ((c.tc : Thread nD τ).loc main_arg7)) bitsLt_bf16_f32 := by
  after_results_simp
theorem W1_v7 (c : Dev nD) : W1 m ρ c (Proc.devRef .tc main_v7) = truncf (F := Ideal) .bf16 (m ((c.tc : Thread nD τ).loc main_arg9)) bitsLt_bf16_f32 := by
  after_results_simp
theorem W1_v8 (c : Dev nD) : W1 m ρ c (Proc.devRef .tc main_v8) = truncf (F := Ideal) .bf16 (m ((c.tc : Thread nD τ).loc main_arg11)) bitsLt_bf16_f32 := by
  after_results_simp

/-! ## Region 1's entry contents (after the second host stretch) -/

theorem V3_v21 (c : Dev nD) : V3 m ρ c main_v21 = (dat0 (V1 m ρ) c).arrAt 6 cfg0.N :=
  (W3_keep m ρ c main_v21 (by no_write)).trans (W2_arr m ρ c 6)

theorem V3_v32 (c : Dev nD) : V3 m ρ c main_v32 = aggK (V3 m ρ c main_v21) (m ((c.tc : Thread nD τ).loc main_arg1)) := by
  have e1 : W2 m ρ c (Proc.devRef .tc main_v1) = srcK (m ((c.tc : Thread nD τ).loc main_arg1)) :=
    (W2_of_ne m ρ c main_v1 (by decide)).trans (W1_v1 m ρ c)
  have e3 : W2 m ρ c (Proc.devRef .tc main_v3) = dstK (m ((c.tc : Thread nD τ).loc main_arg1)) :=
    (W2_of_ne m ρ c main_v3 (by decide)).trans (W1_v3 m ρ c)
  have e21 : V3 m ρ c main_v21 = W2 m ρ c (Proc.devRef .tc main_v21) := W3_keep m ρ c main_v21 (by no_write)
  rw [e21]
  delta V3 W3
  after_results_simp
  rw [e1, e3]
  rfl

theorem V3_v6 (c : Dev nD) : V3 m ρ c main_v6 = truncf (F := Ideal) .bf16 (m ((c.tc : Thread nD τ).loc main_arg7)) bitsLt_bf16_f32 :=
  (W3_keep m ρ c main_v6 (by no_write)).trans ((W2_of_ne m ρ c main_v6 (by decide)).trans (W1_v6 m ρ c))
theorem V3_v7 (c : Dev nD) : V3 m ρ c main_v7 = truncf (F := Ideal) .bf16 (m ((c.tc : Thread nD τ).loc main_arg9)) bitsLt_bf16_f32 :=
  (W3_keep m ρ c main_v7 (by no_write)).trans ((W2_of_ne m ρ c main_v7 (by decide)).trans (W1_v7 m ρ c))
theorem V3_v8 (c : Dev nD) : V3 m ρ c main_v8 = truncf (F := Ideal) .bf16 (m ((c.tc : Thread nD τ).loc main_arg11)) bitsLt_bf16_f32 :=
  (W3_keep m ρ c main_v8 (by no_write)).trans ((W2_of_ne m ρ c main_v8 (by decide)).trans (W1_v8 m ρ c))

theorem V3_arg8 (c : Dev nD) : V3 m ρ c main_arg8 = m ((c.tc : Thread nD τ).loc main_arg8) :=
  (W3_keep m ρ c main_arg8 (by no_write)).trans ((W2_of_ne m ρ c main_arg8 (by decide)).trans (W1_keep m ρ c main_arg8 (by no_write)))
theorem V3_arg10 (c : Dev nD) : V3 m ρ c main_arg10 = m ((c.tc : Thread nD τ).loc main_arg10) :=
  (W3_keep m ρ c main_arg10 (by no_write)).trans ((W2_of_ne m ρ c main_arg10 (by decide)).trans (W1_keep m ρ c main_arg10 (by no_write)))

/-! ## The result (after the last host stretch) -/

theorem W5_v47 (c : Dev nD) :
    W5 m ρ c (Proc.devRef .tc main_v47)
      = tailK ((dat1 (V3 m ρ) c).arrAt 7 cfg1.N) (m ((c.tc : Thread nD τ).loc main_arg2)) (m ((c.tc : Thread nD τ).loc main_arg12)) := by
  have e33 : W4 m ρ c (Proc.devRef .tc main_v33) = (dat1 (V3 m ρ) c).arrAt 7 cfg1.N := W4_arr m ρ c 7
  have e2 : W4 m ρ c (Proc.devRef .tc main_arg2) = m ((c.tc : Thread nD τ).loc main_arg2) :=
    (W5_keep m ρ c main_arg2 (by no_write)).symm.trans (W5_main_arg2 m ρ c)
  have e12 : W4 m ρ c (Proc.devRef .tc main_arg12) = m ((c.tc : Thread nD τ).loc main_arg12) :=
    (W5_keep m ρ c main_arg12 (by no_write)).symm.trans (W5_main_arg12 m ρ c)
  delta W5
  after_results_simp
  rw [e33, e2, e12]
  rfl

end Cert.KernelIdeal.Chain

end
-- ==== Proof.Spec.lean ====
/-
  The graph network's two layers and the projection, entry by entry, over the extended reals.

  A node's hidden vector is `max (∑ⱼ (agg[n,j] + h[n,j]) · Wa[j,k] + ba[k]) 0`; the layer's output at `(n, e)` is
  `∑ₖ hidden[n,k] · Wb[k,e] + bb[e]`. The first layer is followed by one more `max · 0`; the second is used as it is.
  The projection of a node's 128 features onto the 6 outputs is `∑ₑ h[n,e] · Wl[e,o]`.
  Every array is a function of its index; the extents are the literal ones of this network (100000 nodes, 128 features,
  6 outputs), so that every coordinate has a literal `Fin` type.
-/
import Idealize.ShloMosaic.Lib.ValueIdx
import Idealize.ShloMosaic.PureOps.Ideal.Laws

noncomputable section

namespace Cert.Gin

open Idealize.ShloMosaic Idealize.ShloMosaic.ValueIdx

/-- Arrays of extended reals over literal shapes. -/
abbrev Arr2 (a b : Nat) : Type := (⟨2, ![a, b]⟩ : Shape).Idx → EReal
abbrev Arr1 (a : Nat) : Type := (⟨1, ![a]⟩ : Shape).Idx → EReal

/-- The hidden unit `k` of node `n`: the rectified affine image of the node's own row plus its neighbour sum. -/
def hid (h agg : Arr2 100000 128) (Wa : Arr2 128 128) (ba : Arr1 128) (n : Fin 100000) (k : Fin 128) : EReal :=
  max (∑ j : Fin 128, (agg (ix2 n j) + h (ix2 n j)) * Wa (ix2 j k) + ba (ix1 k)) 0

/-- The layer's output feature `e` of node `n`. -/
def mlp (h agg : Arr2 100000 128) (Wa : Arr2 128 128) (ba : Arr1 128) (Wb : Arr2 128 128) (bb : Arr1 128)
    (n : Fin 100000) (e : Fin 128) : EReal :=
  ∑ k : Fin 128, hid h agg Wa ba n k * Wb (ix2 k e) + bb (ix1 e)

/-- The first layer as an array: the layer's output, rectified once more. -/
def layer1 (h agg : Arr2 100000 128) (Wa : Arr2 128 128) (ba : Arr1 128) (Wb : Arr2 128 128) (bb : Arr1 128) :
    Arr2 100000 128 :=
  fun i => max (mlp h agg Wa ba Wb bb (i 0) (i 1)) 0

/-- The second layer as an array: the layer's output as it is. -/
def layer2 (h agg : Arr2 100000 128) (Wa : Arr2 128 128) (ba : Arr1 128) (Wb : Arr2 128 128) (bb : Arr1 128) :
    Arr2 100000 128 :=
  fun i => mlp h agg Wa ba Wb bb (i 0) (i 1)

/-- A node's features projected onto the six outputs. -/
def proj (h : Arr2 100000 128) (Wl : Arr2 128 6) : Arr2 100000 6 :=
  fun i => ∑ e : Fin 128, h (ix2 (i 0) e) * Wl (ix2 e (i 1))

theorem layer1_apply (h agg : Arr2 100000 128) (Wa : Arr2 128 128) (ba : Arr1 128) (Wb : Arr2 128 128) (bb : Arr1 128)
    (n : Fin 100000) (e : Fin 128) :
    layer1 h agg Wa ba Wb bb (ix2 n e) = max (mlp h agg Wa ba Wb bb n e) 0 := rfl

theorem layer2_apply (h agg : Arr2 100000 128) (Wa : Arr2 128 128) (ba : Arr1 128) (Wb : Arr2 128 128) (bb : Arr1 128)
    (n : Fin 100000) (e : Fin 128) :
    layer2 h agg Wa ba Wb bb (ix2 n e) = mlp h agg Wa ba Wb bb n e := rfl

theorem proj_apply (h : Arr2 100000 128) (Wl : Arr2 128 6) (n : Fin 100000) (o : Fin 6) :
    proj h Wl (ix2 n o) = ∑ e : Fin 128, h (ix2 n e) * Wl (ix2 e o) := rfl

end Cert.Gin

end
-- ==== Proof.LibPlainDot.lean ====
/-
  A plain matrix product read at an index, at the extended reals.

  For a rank-2 product `[M, K] · [K, N] → [M, N]` (one contracted axis: the left operand's columns against the right
  operand's rows, no batch axis) accumulated into the zero block, the entry at `(p, e)` is the finite sum over the
  contracted coordinate `k` of `lhs (p, k) · rhs (k, e)`. The product's dimension record enters only through four
  coordinate facts about its operand index maps (each is a one-line computation for a literal record), so the lemma
  serves any such record at any extents.
-/
import Idealize.ShloMosaic.Lib.ValueIdx
import Idealize.ShloMosaic.PureOps.Ideal.Laws

noncomputable section

namespace Cert.LibPlainDot

open Idealize.ShloMosaic Idealize.ShloMosaic.ValueIdx

/-- `[M, K] · [K, N]` into the zero accumulator, at `(p, e)`: `∑ₖ lhs (p, k) · rhs (k, e)`. The hypotheses say that the
    record contracts ONE axis of extent `K`, that the left operand is read at (output row, contracted coordinate) and the
    right operand at (contracted coordinate, output column). -/
theorem matmul_zero_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    matmul D none lhs rhs (constant (F := Ideal) ⟨2, ![M, N]⟩ .f32 0x00000000#32) (ix2 p e)
      = ∑ k : Fin K, lhs (ix2 p k) * rhs (ix2 k e) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

end Cert.LibPlainDot

end
-- ==== Proof.RegionLayout.lean ====
/-
  A block of 4000 node rows through two affine maps with a rectifier between them, read at one entry.

  Both layers of the network push a block `s` of summed rows (a node's own row plus its neighbour sum) through
  `s · Wa + ba`, rectify, and then through `· Wb + bb`. Each product contracts the whole feature axis of extent 128 into
  the zero block, so the entry at `(p, e)` is
  `∑ₖ max (∑ⱼ s[p,j] · Wa[j,k] + ba[k]) 0 · Wb[k,e] + bb[e]`.
  The bias, a vector of 128 entries laid out as one row and repeated down the 4000 rows, reads at `(p, e)` its entry `e`.
  Format changes between the two float widths are the identity on the extended reals.
-/
import proofs.«103897_j22316650070138_2_alg».proof.Proof.Gen.KernelIdeal.Skeleton
import proofs.«103897_j22316650070138_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionLayout

open Idealize.ShloMosaic Idealize.ShloMosaic.ValueIdx Cert.KernelIdeal Cert.KernelIdeal.Gen

/-- The zero offsets of a rank-2 rectangle, as a constant function. -/
theorem zero2 : (![0, 0] : Fin 2 → Nat) = fun _ => 0 := funext fun a => by fin_cases a <;> rfl
/-- The zero offset of a rank-1 rectangle, as a constant function. -/
theorem zero1 : (![0] : Fin 1 → Nat) = fun _ => 0 := funext fun a => by fin_cases a <;> rfl

/-- The rectifier's threshold, the f32 zero word, is the extended real `0`. -/
theorem zero_word : (Scalar.ofBits (F := Ideal) .f32 0x00000000#32 : Ideal .f32) = 0 := Ideal.ofBits_zero_f32

/-- A bias of 128 entries laid out as one row and repeated down 4000 rows reads, at `(p, e)`, its entry `e`. -/
theorem bias_rows_apply {α : Type} (b : S128.Idx → α) (h₁ : S128.ShapeCasts S1x128) (h₂ : S1x128.Broadcasts S4000x128)
    (p : Fin 4000) (e : Fin 128) :
    broadcastTo S4000x128 (shapeCast S1x128 b h₁) h₂ (ix2 p e) = b (ix1 e) :=
  (broadcastTo_1b_ab_apply (shapeCast S1x128 b h₁) h₂ p e).trans (shapeCast_a_1a_apply b h₁ 0 e)

/-- `[4000, 128] · [128, 128]` into the zero block, at `(p, e)`: the sum over the contracted feature. -/
theorem matmul_sq_apply {φ₁ φ₂ : FTy} (lhs : FVec Ideal S4000x128 φ₁) (rhs : FVec Ideal S128x128 φ₂) (p : Fin 4000) (e : Fin 128) :
    matmul dot_S4000x128_S128x128_S4000x128_1_0_0_1_n_n none lhs rhs (constant (F := Ideal) S4000x128 .f32 0x00000000#32) (ix2 p e)
      = ∑ k : Fin 128, lhs (ix2 p k) * rhs (ix2 k e) :=
  Cert.LibPlainDot.matmul_zero_apply dot_S4000x128_S128x128_S4000x128_1_0_0_1_n_n rfl rfl
    (fun i q => by
      unfold DotDims.lhsIdx
      rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
      rfl)
    (fun i q => dot_S4000x128_S128x128_S4000x128_1_0_0_1_n_n.lhsIdx_val_of_single rfl i q)
    (fun i q => dot_S4000x128_S128x128_S4000x128_1_0_0_1_n_n.rhsIdx_val_of_single rfl i q)
    (fun i q => by
      unfold DotDims.rhsIdx
      rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
      rfl)
    lhs rhs p e

/-- The block `s` through `· Wa + ba`, the rectifier, and `· Wb + bb`, as the vector operations compute it. -/
def twoMaps (s : FVec Ideal S4000x128 .f32) (Wa : FVec Ideal S128x128 .bf16) (ba : FVec Ideal S128 .f32)
    (Wb : FVec Ideal S128x128 .bf16) (bb : FVec Ideal S128 .f32) : FVec Ideal S4000x128 .f32 :=
  addf (matmul dot_S4000x128_S128x128_S4000x128_1_0_0_1_n_n none
      (truncf .bf16 (maximumf (addf (matmul dot_S4000x128_S128x128_S4000x128_1_0_0_1_n_n none (truncf .bf16 s bitsLt_bf16_f32)
            (shapeCast S128x128 Wa shapeCasts_S128x128_S128x128) (constant S4000x128 .f32 0x00000000#32))
          (broadcastTo S4000x128 (shapeCast S1x128 ba shapeCasts_S128_S1x128) broadcasts_S1x128_S4000x128))
        (broadcast S4000x128 (Scalar.ofBits .f32 0x00000000#32))) bitsLt_bf16_f32)
      (shapeCast S128x128 Wb shapeCasts_S128x128_S128x128) (constant S4000x128 .f32 0x00000000#32))
    (broadcastTo S4000x128 (shapeCast S1x128 bb shapeCasts_S128_S1x128) broadcasts_S1x128_S4000x128)

/-- Its entry at `(p, e)`. -/
theorem twoMaps_apply (s : FVec Ideal S4000x128 .f32) (Wa : FVec Ideal S128x128 .bf16) (ba : FVec Ideal S128 .f32)
    (Wb : FVec Ideal S128x128 .bf16) (bb : FVec Ideal S128 .f32) (p : Fin 4000) (e : Fin 128) :
    twoMaps s Wa ba Wb bb (ix2 p e)
      = ∑ k : Fin 128, max (∑ j : Fin 128, s (ix2 p j) * Wa (ix2 j k) + ba (ix1 k)) 0 * Wb (ix2 k e) + bb (ix1 e) := by
  unfold twoMaps
  rw [addf_apply, bias_rows_apply, matmul_sq_apply, shapeCast_self, shapeCast_self]
  refine congrArg (· + bb (ix1 e)) (Finset.sum_congr rfl fun k _ => ?_)
  rw [truncf_apply, maximumf_apply, addf_apply, bias_rows_apply, matmul_sq_apply, broadcast_apply, zero_word]
  rfl

end Cert.KernelIdeal.RegionLayout

end
-- ==== Proof.Region0.lean ====
/-
  The first layer's region: what its 25 write-backs leave in the output array.

  The region walks the 100000 node rows in 25 blocks of 4000. At block `t` the body reads rows `4000·t … 4000·t + 3999` of
  the node features `x` and of the neighbour sums `agg`, and the whole of the two weight matrices and the two biases, and
  stores `max (max ((agg + x) · Wa + ba) 0 · Wb + bb) 0` on its 4000 rows. Both products contract the whole feature axis,
  so row `p` of block `t` depends on row `4000·t + p` of `x` and `agg` alone: the block is a block of ONE function of the
  arrays, the first layer `Cert.Gin.layer1`, and the 25 blocks tile the array (row `r` lies in block `r / 4000`).
-/
import proofs.«103897_j22316650070138_2_alg».proof.Proof.Gen.KernelIdeal.Frame
import proofs.«103897_j22316650070138_2_alg».proof.Proof.Spec
import proofs.«103897_j22316650070138_2_alg».proof.Proof.LibPlainDot
import proofs.«103897_j22316650070138_2_alg».proof.Proof.RegionLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.RegionLayout

/-- The body's stored block at `(p, e)`, from the blocks it loads: the rectified second affine map of the rectified
    first affine map of the summed rows. -/
theorem pay0_apply (x0 x1 : FVec Ideal S4000x128 .f32) (x2 : FVec Ideal S128x128 .bf16) (x3 : FVec Ideal S128 .f32)
    (x4 : FVec Ideal S128x128 .bf16) (x5 : FVec Ideal S128 .f32) (p : Fin 4000) (e : Fin 128) :
    k0_pay1 (F := Ideal) x0 x1 x2 x3 x4 x5 (ix2 p e)
      = max (∑ k : Fin 128, max (∑ j : Fin 128, (x1 (ix2 p j) + x0 (ix2 p j)) * x2 (ix2 j k) + x3 (ix1 k)) 0 * x4 (ix2 k e) + x5 (ix1 e)) 0 := by
  have h : k0_pay1 (F := Ideal) x0 x1 x2 x3 x4 x5
      = truncf .bf16 (maximumf (twoMaps (addf (shapeCast S4000x128 x1 shapeCasts_S4000x128_S4000x128) x0) x2 x3 x4 x5)
          (broadcast S4000x128 (Scalar.ofBits .f32 0x00000000#32))) bitsLt_bf16_f32 := rfl
  rw [h, truncf_apply, maximumf_apply, twoMaps_apply, broadcast_apply, zero_word, shapeCast_self]
  rfl

/-- Two functions on a block of 4000 × 128 agree when they agree at every `(p, e)`. -/
theorem block_ext {α : Type} (f g : S4000x128.Idx → α) (h : ∀ (p : Fin 4000) (e : Fin 128), f (ix2 p e) = g (ix2 p e)) : f = g :=
  funext fun y => by rw [eq_ix2 y]; exact h _ _

/-- The block index maps over the grid: the row-blocked windows (the node features, the neighbour sums, the output) sit
    at block `(t, 0)`; the weights and biases at block `0`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

section Blocks
variable (V : (c : Dev nD) → (b : Ref sig .tc) → Buf (Elt Ideal) ((c : Thread nD τ).loc b)) (c : Dev nD) (t : Fin cfg0.N)

/-- Row `p` of the node features' block `t` is row `4000·t + p` of the array. -/
theorem blk0_0_apply (p : Fin 4000) (j : Fin 128) (n : Fin 100000) (hn : n.val = 4000 * t.val + p.val) :
    (iblk0 (F := Ideal) V c 0 t : FVec Ideal S4000x128 .f32) (ix2 p j) = (V c main_arg0 : S100000x128.Idx → EReal) (ix2 n j) := by
  obtain ⟨e0, e1, -⟩ := idx_facts0 t
  unfold iblk0
  rw [View.read_apply]
  show V c main_arg0 _ = V c main_arg0 _
  congr 1
  funext a; apply Fin.ext
  match a with
  | ⟨0, _⟩ => show win0_0.index t (0 : Fin 2) * 4000 + 1 * p.val = n.val; rw [e0, hn]; omega
  | ⟨1, _⟩ => show win0_0.index t (1 : Fin 2) * 128 + 1 * j.val = j.val; rw [e1]; omega

/-- Row `p` of the neighbour sums' block `t` is row `4000·t + p` of the array. -/
theorem blk0_1_apply (p : Fin 4000) (j : Fin 128) (n : Fin 100000) (hn : n.val = 4000 * t.val + p.val) :
    (iblk0 (F := Ideal) V c 1 t : FVec Ideal S4000x128 .f32) (ix2 p j) = (V c main_v20 : S100000x128.Idx → EReal) (ix2 n j) := by
  obtain ⟨-, -, e0, e1, -⟩ := idx_facts0 t
  unfold iblk0
  rw [View.read_apply]
  show V c main_v20 _ = V c main_v20 _
  congr 1
  funext a; apply Fin.ext
  match a with
  | ⟨0, _⟩ => show win0_1.index t (0 : Fin 2) * 4000 + 1 * p.val = n.val; rw [e0, hn]; omega
  | ⟨1, _⟩ => show win0_1.index t (1 : Fin 2) * 128 + 1 * j.val = j.val; rw [e1]; omega

/-- The first weight matrix's one block is the matrix. -/
theorem blk0_2_apply (j k : Fin 128) :
    (iblk0 (F := Ideal) V c 2 t : FVec Ideal S128x128 .bf16) (ix2 j k) = (V c main_v4 : S128x128.Idx → EReal) (ix2 j k) := by
  obtain ⟨-, -, -, -, e0, e1, -⟩ := idx_facts0 t
  unfold iblk0
  rw [View.read_apply]
  show V c main_v4 _ = V c main_v4 _
  congr 1
  funext a; apply Fin.ext
  match a with
  | ⟨0, _⟩ => show win0_2.index t (0 : Fin 2) * 128 + 1 * j.val = j.val; rw [e0]; omega
  | ⟨1, _⟩ => show win0_2.index t (1 : Fin 2) * 128 + 1 * k.val = k.val; rw [e1]; omega

/-- The first bias's one block is the bias. -/
theorem blk0_3_apply (k : Fin 128) :
    (iblk0 (F := Ideal) V c 3 t : FVec Ideal S128 .f32) (ix1 k) = (V c main_arg4 : S128.Idx → EReal) (ix1 k) := by
  obtain ⟨-, -, -, -, -, -, e0, -⟩ := idx_facts0 t
  unfold iblk0
  rw [View.read_apply]
  show V c main_arg4 _ = V c main_arg4 _
  congr 1
  funext a; apply Fin.ext
  match a with
  | ⟨0, _⟩ => show win0_3.index t (0 : Fin 1) * 128 + 1 * k.val = k.val; rw [e0]; omega

/-- The second weight matrix's one block is the matrix. -/
theorem blk0_4_apply (k e : Fin 128) :
    (iblk0 (F := Ideal) V c 4 t : FVec Ideal S128x128 .bf16) (ix2 k e) = (V c main_v5 : S128x128.Idx → EReal) (ix2 k e) := by
  obtain ⟨-, -, -, -, -, -, -, e0, e1, -⟩ := idx_facts0 t
  unfold iblk0
  rw [View.read_apply]
  show V c main_v5 _ = V c main_v5 _
  congr 1
  funext a; apply Fin.ext
  match a with
  | ⟨0, _⟩ => show win0_4.index t (0 : Fin 2) * 128 + 1 * k.val = k.val; rw [e0]; omega
  | ⟨1, _⟩ => show win0_4.index t (1 : Fin 2) * 128 + 1 * e.val = e.val; rw [e1]; omega

/-- The second bias's one block is the bias. -/
theorem blk0_5_apply (e : Fin 128) :
    (iblk0 (F := Ideal) V c 5 t : FVec Ideal S128 .f32) (ix1 e) = (V c main_arg6 : S128.Idx → EReal) (ix1 e) := by
  obtain ⟨-, -, -, -, -, -, -, -, -, e0, -⟩ := idx_facts0 t
  unfold iblk0
  rw [View.read_apply]
  show V c main_arg6 _ = V c main_arg6 _
  congr 1
  funext a; apply Fin.ext
  match a with
  | ⟨0, _⟩ => show win0_5.index t (0 : Fin 1) * 128 + 1 * e.val = e.val; rw [e0]; omega

/-- Entry `(p, e)` of the output's block `t` sits in the array at `(4000·t + p, e)`. -/
theorem emb0_6 (p : Fin 4000) (e : Fin 128) (n : Fin 100000) (hn : n.val = 4000 * t.val + p.val) :
    ((cfg0.win 6).blk t).view.emb (ix2 p e) = (ix2 n e : S100000x128.Idx) := by
  obtain ⟨-, -, -, -, -, -, -, -, -, -, e0, e1⟩ := idx_facts0 t
  funext a; apply Fin.ext
  match a with
  | ⟨0, _⟩ => show win0_6.index t (0 : Fin 2) * 4000 + 1 * p.val = n.val; rw [e0, hn]; omega
  | ⟨1, _⟩ => show win0_6.index t (1 : Fin 2) * 128 + 1 * e.val = e.val; rw [e1]; omega

/-- WHAT BLOCK `t` WRITES BACK is block `t` of the first layer of the arrays the region finds. -/
theorem flushed0_eq :
    (dat0 (F := Ideal) V c).flushed 6 t = ((cfg0.win 6).blk t).view.read (Elt Ideal)
      (Cert.Gin.layer1 (V c main_arg0) (V c main_v20) (V c main_v4) (V c main_arg4) (V c main_v5) (V c main_arg6)) := by
  show (cfg0.win 6).cut (grid0.coords t) ((dat0 V c).after 6 t) = _
  rw [after0_6]
  unfold out0_6
  rw [View.canon_unit_zero zero2]
  simp only [View.ld_unit_zero (S := S4000x128) zero2, View.ld_unit_zero (S := S128x128) zero2, View.ld_unit_zero (S := S128) zero1]
  refine block_ext _ _ fun p e => ?_
  obtain ⟨n, hn⟩ : ∃ n : Fin 100000, n.val = 4000 * t.val + p.val :=
    ⟨⟨4000 * t.val + p.val, by have := lt_of_lt_of_eq t.isLt N_0; have := p.isLt; omega⟩, rfl⟩
  rw [View.read_apply, emb0_6 t p e n hn]
  show _ = Cert.Gin.layer1 _ _ _ _ _ _ (ix2 n e)
  rw [Cert.Gin.layer1_apply]
  refine (pay0_apply (iblk0 V c 0 t) (iblk0 V c 1 t) (iblk0 V c 2 t) (iblk0 V c 3 t) (iblk0 V c 4 t) (iblk0 V c 5 t) p e).trans ?_
  unfold Cert.Gin.mlp Cert.Gin.hid
  simp only [blk0_0_apply V c t p _ n hn, blk0_1_apply V c t p _ n hn, blk0_2_apply V c t, blk0_3_apply V c t, blk0_4_apply V c t, blk0_5_apply V c t]

end Blocks

/-- An index of the array is in block `t` iff each coordinate is in the block's range on its axis. -/
theorem mem_blk0_6 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v21).slice (win0_6.rect t)).set ↔ _
  rw [View.set_slice_whole, Rect.mem_set_unit]
  exact Iff.rfl

/-- The 25 blocks tile the array: row `r` lies in block `r / 4000`. -/
theorem tiled0_6 (i : S100000x128.Idx) :
    ∃ t : Fin cfg0.N, (cfg0.win 6).flush t = true ∧ i ∈ ((cfg0.win 6).blk t).view.set := by
  have hi0 : (i 0).val < 100000 := idx2_lt0 i
  have hi1 : (i 1).val < 128 := idx2_lt1 i
  obtain ⟨t, ht⟩ : ∃ t : Fin cfg0.N, t.val = (i 0).val / 4000 :=
    ⟨⟨(i 0).val / 4000, lt_of_lt_of_eq (by omega : (i 0).val / 4000 < 25) N_0.symm⟩, rfl⟩
  obtain ⟨-, -, -, -, -, -, -, -, -, -, e0, e1⟩ := idx_facts0 t
  refine ⟨t, flush0_6 t, ?_⟩
  rw [mem_blk0_6]
  intro a
  match a with
  | ⟨0, _⟩ => show win0_6.index t (0 : Fin 2) * 4000 ≤ (i 0).val ∧ (i 0).val < win0_6.index t (0 : Fin 2) * 4000 + 4000; rw [e0, ht]; omega
  | ⟨1, _⟩ => show win0_6.index t (1 : Fin 2) * 128 ≤ (i 1).val ∧ (i 1).val < win0_6.index t (1 : Fin 2) * 128 + 128; rw [e1]; omega

/-- THE OUTPUT ARRAY after the region: the first layer of the arrays the region finds. -/
theorem region0_value (V : (c : Dev nD) → (b : Ref sig .tc) → Buf (Elt Ideal) ((c : Thread nD τ).loc b)) (c : Dev nD) :
    (Gen.dat0 (F := Ideal) V c).arrAt 6 cfg0.N
      = Cert.Gin.layer1 (V c main_arg0) (V c main_v20) (V c main_v4) (V c main_arg4) (V c main_v5) (V c main_arg6) :=
  (dat0 V c).arrAt_eq_of_cover 6 _ (fun t _ => flushed0_eq V c t) tiled0_6

end Cert.KernelIdeal.RegionValue

end
-- ==== Proof.Region1.lean ====
/-
  The second layer's region with the projection: what its 25 write-backs leave in the output array.

  The region walks the 100000 node rows in 25 blocks of 4000. At block `t` the body reads rows `4000·t … 4000·t + 3999` of
  the first layer's output `h` and of its neighbour sums `agg`, and the whole of the two weight matrices, the two biases
  and the projection matrix `Wl`, and stores `(max ((agg + h) · Wa + ba) 0 · Wb + bb) · Wl` on its 4000 rows. Every product
  contracts the whole feature axis, so row `p` of block `t` depends on row `4000·t + p` of `h` and `agg` alone: the block
  is a block of ONE function of the arrays, the projection `Cert.Gin.proj` of the second layer `Cert.Gin.layer2`, and the
  25 blocks tile the array (row `r` lies in block `r / 4000`).
-/
import proofs.«103897_j22316650070138_2_alg».proof.Proof.Gen.KernelIdeal.Frame
import proofs.«103897_j22316650070138_2_alg».proof.Proof.Spec
import proofs.«103897_j22316650070138_2_alg».proof.Proof.LibPlainDot
import proofs.«103897_j22316650070138_2_alg».proof.Proof.RegionLayout
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.RegionLayout

/-- `[4000, 128] · [128, 6]` into the zero block, at `(p, o)`: the sum over the contracted feature. -/
theorem matmul_out_apply {φ₁ φ₂ : FTy} (lhs : FVec Ideal S4000x128 φ₁) (rhs : FVec Ideal S128x6 φ₂) (p : Fin 4000) (o : Fin 6) :
    matmul dot_S4000x128_S128x6_S4000x6_1_0_0_1_n_n none lhs rhs (constant (F := Ideal) S4000x6 .f32 0x00000000#32) (ix2 p o)
      = ∑ e : Fin 128, lhs (ix2 p e) * rhs (ix2 e o) :=
  Cert.LibPlainDot.matmul_zero_apply dot_S4000x128_S128x6_S4000x6_1_0_0_1_n_n rfl rfl
    (fun i q => by
      unfold DotDims.lhsIdx
      rw [dif_neg (show ¬(0 : Fin S4000x128.rank) ∈ dot_S4000x128_S128x6_S4000x6_1_0_0_1_n_n.lhsBatch by decide), dif_pos (show (0 : Fin S4000x128.rank) ∈ dot_S4000x128_S128x6_S4000x6_1_0_0_1_n_n.lhsNonContracting by decide)]
      rfl)
    (fun i q => dot_S4000x128_S128x6_S4000x6_1_0_0_1_n_n.lhsIdx_val_of_single rfl i q)
    (fun i q => dot_S4000x128_S128x6_S4000x6_1_0_0_1_n_n.rhsIdx_val_of_single rfl i q)
    (fun i q => by
      unfold DotDims.rhsIdx
      rw [dif_neg (show ¬(1 : Fin S128x6.rank) ∈ dot_S4000x128_S128x6_S4000x6_1_0_0_1_n_n.rhsBatch by decide), dif_pos (show (1 : Fin S128x6.rank) ∈ dot_S4000x128_S128x6_S4000x6_1_0_0_1_n_n.rhsNonContracting by decide)]
      rfl)
    lhs rhs p o

/-- The body's stored block at `(p, o)`, from the blocks it loads: the projection of the second affine map of the
    rectified first affine map of the summed rows. -/
theorem pay1_apply (x0 : FVec Ideal S4000x128 .bf16) (x1 : FVec Ideal S4000x128 .f32) (x2 : FVec Ideal S128x128 .bf16) (x3 : FVec Ideal S128 .f32)
    (x4 : FVec Ideal S128x128 .bf16) (x5 : FVec Ideal S128 .f32) (x6 : FVec Ideal S128x6 .bf16) (p : Fin 4000) (o : Fin 6) :
    k1_pay1 (F := Ideal) x0 x1 x2 x3 x4 x5 x6 (ix2 p o)
      = ∑ e : Fin 128, (∑ k : Fin 128, max (∑ j : Fin 128, (x1 (ix2 p j) + x0 (ix2 p j)) * x2 (ix2 j k) + x3 (ix1 k)) 0 * x4 (ix2 k e) + x5 (ix1 e)) * x6 (ix2 e o) := by
  have h : k1_pay1 (F := Ideal) x0 x1 x2 x3 x4 x5 x6
      = matmul dot_S4000x128_S128x6_S4000x6_1_0_0_1_n_n none
          (truncf .bf16 (twoMaps (addf (shapeCast S4000x128 x1 shapeCasts_S4000x128_S4000x128)
              (extf .f32 (shapeCast S4000x128 x0 shapeCasts_S4000x128_S4000x128) bitsLt_bf16_f32)) x2 x3 x4 x5) bitsLt_bf16_f32)
          (shapeCast S128x6 x6 shapeCasts_S128x6_S128x6) (constant S4000x6 .f32 0x00000000#32) := rfl
  rw [h, matmul_out_apply, shapeCast_self]
  refine Finset.sum_congr rfl fun e _ => ?_
  rw [truncf_apply, twoMaps_apply, shapeCast_self, shapeCast_self]
  rfl

/-- Two functions on a block of 4000 × 6 agree when they agree at every `(p, o)`. -/
theorem block_ext1 {α : Type} (f g : S4000x6.Idx → α) (h : ∀ (p : Fin 4000) (o : Fin 6), f (ix2 p o) = g (ix2 p o)) : f = g :=
  funext fun y => by rw [eq_ix2 y]; exact h _ _

/-- The block index maps over the grid: the row-blocked windows (the first layer's output, the neighbour sums, the
    output) sit at block `(t, 0)`; the weights, the biases and the projection matrix at block `0`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

section Blocks
variable (V : (c : Dev nD) → (b : Ref sig .tc) → Buf (Elt Ideal) ((c : Thread nD τ).loc b)) (c : Dev nD) (t : Fin cfg1.N)

/-- Row `p` of the first layer's output's block `t` is row `4000·t + p` of the array. -/
theorem blk1_0_apply (p : Fin 4000) (j : Fin 128) (n : Fin 100000) (hn : n.val = 4000 * t.val + p.val) :
    (iblk1 (F := Ideal) V c 0 t : FVec Ideal S4000x128 .bf16) (ix2 p j) = (V c main_v21 : S100000x128.Idx → EReal) (ix2 n j) := by
  obtain ⟨e0, e1, -⟩ := idx_facts1 t
  unfold iblk1
  rw [View.read_apply]
  show V c main_v21 _ = V c main_v21 _
  congr 1
  funext a; apply Fin.ext
  match a with
  | ⟨0, _⟩ => show win1_0.index t (0 : Fin 2) * 4000 + 1 * p.val = n.val; rw [e0, hn]; omega
  | ⟨1, _⟩ => show win1_0.index t (1 : Fin 2) * 128 + 1 * j.val = j.val; rw [e1]; omega

/-- Row `p` of the neighbour sums' block `t` is row `4000·t + p` of the array. -/
theorem blk1_1_apply (p : Fin 4000) (j : Fin 128) (n : Fin 100000) (hn : n.val = 4000 * t.val + p.val) :
    (iblk1 (F := Ideal) V c 1 t : FVec Ideal S4000x128 .f32) (ix2 p j) = (V c main_v32 : S100000x128.Idx → EReal) (ix2 n j) := by
  obtain ⟨-, -, e0, e1, -⟩ := idx_facts1 t
  unfold iblk1
  rw [View.read_apply]
  show V c main_v32 _ = V c main_v32 _
  congr 1
  funext a; apply Fin.ext
  match a with
  | ⟨0, _⟩ => show win1_1.index t (0 : Fin 2) * 4000 + 1 * p.val = n.val; rw [e0, hn]; omega
  | ⟨1, _⟩ => show win1_1.index t (1 : Fin 2) * 128 + 1 * j.val = j.val; rw [e1]; omega

/-- The first weight matrix's one block is the matrix. -/
theorem blk1_2_apply (j k : Fin 128) :
    (iblk1 (F := Ideal) V c 2 t : FVec Ideal S128x128 .bf16) (ix2 j k) = (V c main_v6 : S128x128.Idx → EReal) (ix2 j k) := by
  obtain ⟨-, -, -, -, e0, e1, -⟩ := idx_facts1 t
  unfold iblk1
  rw [View.read_apply]
  show V c main_v6 _ = V c main_v6 _
  congr 1
  funext a; apply Fin.ext
  match a with
  | ⟨0, _⟩ => show win1_2.index t (0 : Fin 2) * 128 + 1 * j.val = j.val; rw [e0]; omega
  | ⟨1, _⟩ => show win1_2.index t (1 : Fin 2) * 128 + 1 * k.val = k.val; rw [e1]; omega

/-- The first bias's one block is the bias. -/
theorem blk1_3_apply (k : Fin 128) :
    (iblk1 (F := Ideal) V c 3 t : FVec Ideal S128 .f32) (ix1 k) = (V c main_arg8 : S128.Idx → EReal) (ix1 k) := by
  obtain ⟨-, -, -, -, -, -, e0, -⟩ := idx_facts1 t
  unfold iblk1
  rw [View.read_apply]
  show V c main_arg8 _ = V c main_arg8 _
  congr 1
  funext a; apply Fin.ext
  match a with
  | ⟨0, _⟩ => show win1_3.index t (0 : Fin 1) * 128 + 1 * k.val = k.val; rw [e0]; omega

/-- The second weight matrix's one block is the matrix. -/
theorem blk1_4_apply (k e : Fin 128) :
    (iblk1 (F := Ideal) V c 4 t : FVec Ideal S128x128 .bf16) (ix2 k e) = (V c main_v7 : S128x128.Idx → EReal) (ix2 k e) := by
  obtain ⟨-, -, -, -, -, -, -, e0, e1, -⟩ := idx_facts1 t
  unfold iblk1
  rw [View.read_apply]
  show V c main_v7 _ = V c main_v7 _
  congr 1
  funext a; apply Fin.ext
  match a with
  | ⟨0, _⟩ => show win1_4.index t (0 : Fin 2) * 128 + 1 * k.val = k.val; rw [e0]; omega
  | ⟨1, _⟩ => show win1_4.index t (1 : Fin 2) * 128 + 1 * e.val = e.val; rw [e1]; omega

/-- The second bias's one block is the bias. -/
theorem blk1_5_apply (e : Fin 128) :
    (iblk1 (F := Ideal) V c 5 t : FVec Ideal S128 .f32) (ix1 e) = (V c main_arg10 : S128.Idx → EReal) (ix1 e) := by
  obtain ⟨-, -, -, -, -, -, -, -, -, e0, -⟩ := idx_facts1 t
  unfold iblk1
  rw [View.read_apply]
  show V c main_arg10 _ = V c main_arg10 _
  congr 1
  funext a; apply Fin.ext
  match a with
  | ⟨0, _⟩ => show win1_5.index t (0 : Fin 1) * 128 + 1 * e.val = e.val; rw [e0]; omega

/-- The projection matrix's one block is the matrix. -/
theorem blk1_6_apply (e : Fin 128) (o : Fin 6) :
    (iblk1 (F := Ideal) V c 6 t : FVec Ideal S128x6 .bf16) (ix2 e o) = (V c main_v8 : S128x6.Idx → EReal) (ix2 e o) := by
  obtain ⟨-, -, -, -, -, -, -, -, -, -, e0, e1, -⟩ := idx_facts1 t
  unfold iblk1
  rw [View.read_apply]
  show V c main_v8 _ = V c main_v8 _
  congr 1
  funext a; apply Fin.ext
  match a with
  | ⟨0, _⟩ => show win1_6.index t (0 : Fin 2) * 128 + 1 * e.val = e.val; rw [e0]; omega
  | ⟨1, _⟩ => show win1_6.index t (1 : Fin 2) * 6 + 1 * o.val = o.val; rw [e1]; omega

/-- Entry `(p, o)` of the output's block `t` sits in the array at `(4000·t + p, o)`. -/
theorem emb1_7 (p : Fin 4000) (o : Fin 6) (n : Fin 100000) (hn : n.val = 4000 * t.val + p.val) :
    ((cfg1.win 7).blk t).view.emb (ix2 p o) = (ix2 n o : S100000x6.Idx) := by
  obtain ⟨-, -, -, -, -, -, -, -, -, -, -, -, e0, e1⟩ := idx_facts1 t
  funext a; apply Fin.ext
  match a with
  | ⟨0, _⟩ => show win1_7.index t (0 : Fin 2) * 4000 + 1 * p.val = n.val; rw [e0, hn]; omega
  | ⟨1, _⟩ => show win1_7.index t (1 : Fin 2) * 6 + 1 * o.val = o.val; rw [e1]; omega

/-- WHAT BLOCK `t` WRITES BACK is block `t` of the projected second layer of the arrays the region finds. -/
theorem flushed1_eq :
    (dat1 (F := Ideal) V c).flushed 7 t = ((cfg1.win 7).blk t).view.read (Elt Ideal)
      (Cert.Gin.proj (Cert.Gin.layer2 (V c main_v21) (V c main_v32) (V c main_v6) (V c main_arg8) (V c main_v7) (V c main_arg10)) (V c main_v8)) := by
  show (cfg1.win 7).cut (grid1.coords t) ((dat1 V c).after 7 t) = _
  rw [after1_7]
  unfold out1_7
  rw [View.canon_unit_zero zero2]
  simp only [View.ld_unit_zero (S := S4000x128) zero2, View.ld_unit_zero (S := S128x128) zero2, View.ld_unit_zero (S := S128) zero1,
    View.ld_unit_zero (S := S128x6) zero2]
  refine block_ext1 _ _ fun p o => ?_
  obtain ⟨n, hn⟩ : ∃ n : Fin 100000, n.val = 4000 * t.val + p.val :=
    ⟨⟨4000 * t.val + p.val, by have := lt_of_lt_of_eq t.isLt N_1; have := p.isLt; omega⟩, rfl⟩
  rw [View.read_apply, emb1_7 t p o n hn]
  show _ = Cert.Gin.proj _ _ (ix2 n o)
  rw [Cert.Gin.proj_apply]
  refine (pay1_apply (iblk1 V c 0 t) (iblk1 V c 1 t) (iblk1 V c 2 t) (iblk1 V c 3 t) (iblk1 V c 4 t) (iblk1 V c 5 t) (iblk1 V c 6 t) p o).trans ?_
  simp only [Cert.Gin.layer2_apply]
  unfold Cert.Gin.mlp Cert.Gin.hid
  simp only [blk1_0_apply V c t p _ n hn, blk1_1_apply V c t p _ n hn, blk1_2_apply V c t, blk1_3_apply V c t, blk1_4_apply V c t, blk1_5_apply V c t, blk1_6_apply V c t]

end Blocks

/-- An index of the array is in block `t` iff each coordinate is in the block's range on its axis. -/
theorem mem_blk1_7 (t : Fin cfg1.N) (i : S100000x6.Idx) :
    i ∈ ((cfg1.win 7).blk t).view.set ↔ ∀ a : Fin 2, win1_7.index t a * S4000x6.size a ≤ (i a).val ∧ (i a).val < win1_7.index t a * S4000x6.size a + S4000x6.size a := by
  show i ∈ ((View.whole main_v33).slice (win1_7.rect t)).set ↔ _
  rw [View.set_slice_whole, Rect.mem_set_unit]
  exact Iff.rfl

/-- The 25 blocks tile the array: row `r` lies in block `r / 4000`. -/
theorem tiled1_7 (i : S100000x6.Idx) :
    ∃ t : Fin cfg1.N, (cfg1.win 7).flush t = true ∧ i ∈ ((cfg1.win 7).blk t).view.set := by
  have hi0 : (i 0).val < 100000 := idx2_lt0 i
  have hi1 : (i 1).val < 6 := idx2_lt1 i
  obtain ⟨t, ht⟩ : ∃ t : Fin cfg1.N, t.val = (i 0).val / 4000 :=
    ⟨⟨(i 0).val / 4000, lt_of_lt_of_eq (by omega : (i 0).val / 4000 < 25) N_1.symm⟩, rfl⟩
  obtain ⟨-, -, -, -, -, -, -, -, -, -, -, -, e0, e1⟩ := idx_facts1 t
  refine ⟨t, flush1_7 t, ?_⟩
  rw [mem_blk1_7]
  intro a
  match a with
  | ⟨0, _⟩ => show win1_7.index t (0 : Fin 2) * 4000 ≤ (i 0).val ∧ (i 0).val < win1_7.index t (0 : Fin 2) * 4000 + 4000; rw [e0, ht]; omega
  | ⟨1, _⟩ => show win1_7.index t (1 : Fin 2) * 6 ≤ (i 1).val ∧ (i 1).val < win1_7.index t (1 : Fin 2) * 6 + 6; rw [e1]; omega

/-- THE OUTPUT ARRAY after the region: the second layer of the arrays the region finds, projected onto the six outputs. -/
theorem region1_value (V : (c : Dev nD) → (b : Ref sig .tc) → Buf (Elt Ideal) ((c : Thread nD τ).loc b)) (c : Dev nD) :
    (Gen.dat1 (F := Ideal) V c).arrAt 7 cfg1.N
      = Cert.Gin.proj (Cert.Gin.layer2 (V c main_v21) (V c main_v32) (V c main_v6) (V c main_arg8) (V c main_v7) (V c main_arg10)) (V c main_v8) :=
  (dat1 V c).arrAt_eq_of_cover 7 _ (fun t _ => flushed1_eq V c t) tiled1_7

end Cert.KernelIdeal.RegionValue

end
-- ==== Proof.LibHostDot.lean ====
/-
  A plain matrix product computed on the host, read at an index, at the extended reals.

  For a rank-2 product `[M, K] · [K, N] → [M, N]` (one contracted axis: the left operand's columns against the right
  operand's rows, no batch axis) the entry at `(p, e)` is the finite sum over the contracted coordinate `k` of
  `lhs (p, k) · rhs (k, e)` — the same sum a kernel's product into a zero block has there. The product's dimension
  record enters only through four coordinate facts about its operand index maps (each a one-line computation for a
  literal record), so the lemma serves any such record at any extents.
-/
import Idealize.ShloMosaic.Lib.ValueIdx
import Idealize.ShloMosaic.PureOps.Ideal.Laws

noncomputable section

namespace Cert.LibHostDot

open Idealize.ShloMosaic Idealize.ShloMosaic.ValueIdx

/-- The host's `[M, K] · [K, N]`, at `(p, e)`: `∑ₖ lhs (p, k) · rhs (k, e)`. The hypotheses say that the record
    contracts ONE axis of extent `K`, that the left operand is read at (output row, contracted coordinate) and the right
    operand at (contracted coordinate, output column). -/
theorem dotGeneral_apply {M K N : ℕ} {φ₁ φ₂ : FTy}
    (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![M, K]⟩ φ₁) (rhs : FVec Ideal ⟨2, ![K, N]⟩ φ₂) (p : Fin M) (e : Fin N) :
    Host.dotGeneral D none lhs rhs (ix2 p e) = ∑ k : Fin K, lhs (ix2 p k) * rhs (ix2 k e) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p e) ((contrEquiv1 D K hr hs).symm k) = ix2 p k := funext fun a => Fin.ext (by
    match a with
    | ⟨0, _⟩ => exact hl0 _ _
    | ⟨1, _⟩ => exact (hl1 _ _).trans hk)
  have er : D.rhsIdx (ix2 p e) ((contrEquiv1 D K hr hs).symm k) = ix2 k e := funext fun a => Fin.ext (by
    match a with
    | ⟨0, _⟩ => exact (hr0 _ _).trans hk
    | ⟨1, _⟩ => exact hr1 _ _)
  rw [el, er]

end Cert.LibHostDot

end
-- ==== Proof.RefValue.lean ====
/-
  The reference's two layers are the specification's.

  The reference computes a node's neighbour sum by one gather (rows of the features at the edges' sources) and one
  accumulating scatter (into the edges' targets); that chain is named `aggR` and never opened here. Around it each layer
  is two dense maps `A · W + b` (a product with ONE contracted axis of 128, read at an entry as `∑ⱼ A[n,j] · W[j,k]`, plus
  the bias row) with a `max · 0` between them: entry by entry the specification's `mlp`.
-/
import proofs.«103897_j22316650070138_2_alg».proof.Proof.Gen.ReferenceIdeal.Read
import proofs.«103897_j22316650070138_2_alg».proof.Proof.Spec
import proofs.«103897_j22316650070138_2_alg».proof.Proof.LibHostDot

noncomputable section

namespace Cert.ReferenceIdeal.RefValue

open Cert.ReferenceIdeal Cert.ReferenceIdeal.Gen Cert.ReferenceIdeal.Read Idealize.ShloMosaic Idealize.ShloMosaic.ValueIdx Cert.Gin

/-- The neighbour sum of the features `h` along the edges `x1`, as the reference's @main computes it. -/
def aggR (h : (⟨S100000x128, .f32⟩ : BufTy).Contents (Elt Ideal)) (x1 : (⟨S2x1600000, .i32⟩ : BufTy).Contents (Elt Ideal)) :
    (⟨S100000x128, .f32⟩ : BufTy).Contents (Elt Ideal) :=
  Host.scatterAdd (F := Ideal) (φ := .f32) scatter_S100000x128_S1600000x1_S1600000x128_1_0_0_1 (val_main_v11 (F := Ideal))
    (val_main_v12 (F := Ideal) x1)
    (Host.gather gather_S100000x128_S1600000x1_S1600000x128_1_0_n_n_0_1_1128 h (val_main_v9 (F := Ideal) x1))

/-- A dense map `A · W + b` as the reference spells it. -/
def denseR (A : FVec Ideal S100000x128 .f32) (W : FVec Ideal S128x128 .f32) (b : FVec Ideal S128 .f32) :
    FVec Ideal S100000x128 .f32 :=
  addf (Host.dotGeneral (F := Ideal) dot_S100000x128_S128x128_S100000x128_1_0_0_1_n_n none A W)
    (broadcastInDim S100000x128 ![0, 1] bcast_S1x128_S100000x128_0_1 (broadcastInDim S1x128 ![1] bcast_S128_S1x128_1 b))

/-- The array of zeros the reference rectifies against. -/
def zerosR : FVec Ideal S100000x128 .f32 :=
  broadcastInDim S100000x128 ![] bcast_S_S100000x128 (constant (F := Ideal) S_ .f32 0x00000000#32)

/-- One layer as the reference spells it. -/
def mlpR (h agg : FVec Ideal S100000x128 .f32) (Wa : FVec Ideal S128x128 .f32) (ba : FVec Ideal S128 .f32)
    (Wb : FVec Ideal S128x128 .f32) (bb : FVec Ideal S128 .f32) : FVec Ideal S100000x128 .f32 :=
  denseR (maximumf (denseR (addf agg h) Wa ba) zerosR) Wb bb

theorem zerosR_apply (i : S100000x128.Idx) : zerosR i = 0 := by
  show Ideal.ofBits .f32 0x00000000#32 = 0
  exact Ideal.ofBits_zero_f32

/-- A dense map at an entry. -/
theorem denseR_apply (A : FVec Ideal S100000x128 .f32) (W : FVec Ideal S128x128 .f32) (b : FVec Ideal S128 .f32)
    (n : Fin 100000) (k : Fin 128) :
    denseR A W b (ix2 n k) = ∑ j : Fin 128, A (ix2 n j) * W (ix2 j k) + b (ix1 k) := by
  show Host.dotGeneral dot_S100000x128_S128x128_S100000x128_1_0_0_1_n_n none A W (ix2 n k)
      + val_main_v17 (F := Ideal) b (ix2 n k) = _
  rw [Cert.LibHostDot.dotGeneral_apply _ rfl rfl lhs_main_v15_0 lhs_main_v15_1 rhs_main_v15_0 rhs_main_v15_1,
    val_main_v17_apply, val_main_v16_apply]
  refine congrArg (fun t => _ + b t) (funext fun a => ?_)
  match a with
  | ⟨0, _⟩ => rfl

/-- One layer at an entry: the specification's `mlp`. -/
theorem mlpR_apply (h agg : FVec Ideal S100000x128 .f32) (Wa : FVec Ideal S128x128 .f32) (ba : FVec Ideal S128 .f32)
    (Wb : FVec Ideal S128x128 .f32) (bb : FVec Ideal S128 .f32) (n : Fin 100000) (e : Fin 128) :
    mlpR h agg Wa ba Wb bb (ix2 n e) = mlp h agg Wa ba Wb bb n e := by
  unfold mlpR mlp hid
  rw [denseR_apply]
  refine congrArg (fun t => t + bb (ix1 e)) (Finset.sum_congr rfl fun k _ => ?_)
  refine congrArg (fun t => t * Wb (ix2 k e)) ?_
  show max (denseR (addf agg h) Wa ba (ix2 n k)) (zerosR (ix2 n k)) = _
  rw [denseR_apply, zerosR_apply]
  rfl

theorem layer1_eq (h agg : FVec Ideal S100000x128 .f32) (Wa : FVec Ideal S128x128 .f32) (ba : FVec Ideal S128 .f32)
    (Wb : FVec Ideal S128x128 .f32) (bb : FVec Ideal S128 .f32) :
    maximumf (mlpR h agg Wa ba Wb bb) zerosR = layer1 h agg Wa ba Wb bb := by
  funext i
  obtain ⟨n, e, rfl⟩ : ∃ (n : Fin 100000) (e : Fin 128), i = ix2 n e := ⟨i 0, i 1, eq_ix2 i⟩
  show max (mlpR h agg Wa ba Wb bb (ix2 n e)) (zerosR (ix2 n e)) = _
  rw [mlpR_apply, zerosR_apply]
  rfl

theorem layer2_eq (h agg : FVec Ideal S100000x128 .f32) (Wa : FVec Ideal S128x128 .f32) (ba : FVec Ideal S128 .f32)
    (Wb : FVec Ideal S128x128 .f32) (bb : FVec Ideal S128 .f32) :
    mlpR h agg Wa ba Wb bb = layer2 h agg Wa ba Wb bb := by
  funext i
  obtain ⟨n, e, rfl⟩ : ∃ (n : Fin 100000) (e : Fin 128), i = ix2 n e := ⟨i 0, i 1, eq_ix2 i⟩
  rw [mlpR_apply]
  rfl

/-- The reference's first layer, as a stage of its run. -/
theorem v26_eq (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal)) :
    val_main_v26 (F := Ideal) x0 x1 x3 x4 x5 x6 = layer1 x0 (aggR x0 x1) x3 x4 x5 x6 :=
  (show val_main_v26 (F := Ideal) x0 x1 x3 x4 x5 x6 = maximumf (mlpR x0 (aggR x0 x1) x3 x4 x5 x6) zerosR from rfl).trans
    (layer1_eq _ _ _ _ _ _)

/-- The reference's second layer, as a stage of its run, over its first layer `h1`. -/
theorem v47_eq (x0 : (⟨S100000x128, .f32⟩ : BufTy).Contents (Elt Ideal)) (x1 : (⟨S2x1600000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (x7 : (⟨S128x128, .f32⟩ : BufTy).Contents (Elt Ideal)) (x8 : (⟨S128, .f32⟩ : BufTy).Contents (Elt Ideal))
    (x9 : (⟨S128x128, .f32⟩ : BufTy).Contents (Elt Ideal)) (x10 : (⟨S128, .f32⟩ : BufTy).Contents (Elt Ideal)) :
    val_main_v47 (F := Ideal) x0 x1 x3 x4 x5 x6 x7 x8 x9 x10
      = layer2 (val_main_v26 (F := Ideal) x0 x1 x3 x4 x5 x6) (aggR (val_main_v26 (F := Ideal) x0 x1 x3 x4 x5 x6) x1) x7 x8 x9 x10 :=
  (show val_main_v47 (F := Ideal) x0 x1 x3 x4 x5 x6 x7 x8 x9 x10
      = mlpR (val_main_v26 (F := Ideal) x0 x1 x3 x4 x5 x6) (aggR (val_main_v26 (F := Ideal) x0 x1 x3 x4 x5 x6) x1) x7 x8 x9 x10
    from rfl).trans (layer2_eq _ _ _ _ _ _)

end Cert.ReferenceIdeal.RefValue

end
-- ==== Proof.LibGather.lean ====
/-
  A row gather read at an index.

  `x[idx]` of a matrix `x : [N, C]` at an integer array of row numbers lowers to `stablehlo.gather` with
  the row axis collapsed, the column axis the one offset axis, and the row numbers carried on a trailing
  unit axis.  Element `(…, j)` of the result is `x` at row `idx[…, 0]`, read as a signed integer and clamped
  into `[0, N − 1]`, and column `j`.  Two layouts of the row numbers are read here: a list `[R, 1]` giving
  a result `[R, C]`, and a table `[A, B, 1]` giving a result `[A, B, C]`.
-/
import Idealize.ShloMosaic.Lib.ValueIdx

noncomputable section

namespace Idealize.ShloMosaic.LibGather

open Idealize.ShloMosaic Idealize.ShloMosaic.ValueIdx

variable {α : Type}

/-- The row an integer word names in a matrix of `N` rows: the word read signed, clamped into `[0, N − 1]`. -/
def rowOf {w : Nat} (N : Nat) (hN : 0 < N) (v : BitVec w) : Fin N := ⟨min v.toInt.toNat (N - 1), by omega⟩

/-! ## Row numbers as a list `[R, 1]` -/

/-- The dimension numbers of `x[idx]` for `x : [N, C]`, `idx : [R, 1]`, result `[R, C]`. -/
abbrev rowsDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather of rows from a list of row numbers, at `(r, j)`: row `idx[r, 0]` (signed, clamped), column `j`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (j : Fin C) :
    Host.gather (rowsDims N C R wf) x idx (ix2 r j) = x (ix2 (rowOf N hN (idx (ix2 r (0 : Fin 1)))) j) := by
  unfold Host.gather
  congr 1
  funext a
  refine Fin.ext ?_
  match a with
  | ⟨0, _⟩ =>
    show (rowsDims N C R wf).start (ix2 r j) idx 0 + (rowsDims N C R wf).batchCoord (ix2 r j) 0
      + (rowsDims N C R wf).offCoord (ix2 r j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r j) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r j) idx 1 + (rowsDims N C R wf).batchCoord (ix2 r j) 1
      + (rowsDims N C R wf).offCoord (ix2 r j) 1 = _
    rw [GatherDims.batchCoord_eq_zero _ _ _ List.not_mem_nil]
    unfold GatherDims.start
    rw [dif_neg (show ¬ (1 : Fin 2) ∈ (rowsDims N C R wf).startIndexMap from
      fun h => Nat.one_ne_zero (congrArg Fin.val (List.mem_singleton.mp h)))]
    simp only [Nat.add_zero, Nat.zero_add]
    rfl

/-! ## Row numbers as a table `[A, B, 1]` -/

/-- The dimension numbers of `x[idx]` for `x : [N, C]`, `idx : [A, B, 1]`, result `[A, B, C]`. -/
abbrev tableDims (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The gather of rows from a table of row numbers, at `(a, b, j)`: row `idx[a, b, 0]` (signed, clamped),
    column `j`. -/
theorem gather_table_apply {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (j : Fin C) :
    Host.gather (tableDims N C A B wf) x idx (ix3 a b j) = x (ix2 (rowOf N hN (idx (ix3 a b (0 : Fin 1)))) j) := by
  unfold Host.gather
  congr 1
  funext e
  refine Fin.ext ?_
  match e with
  | ⟨0, _⟩ =>
    show (tableDims N C A B wf).start (ix3 a b j) idx 0 + (tableDims N C A B wf).batchCoord (ix3 a b j) 0
      + (tableDims N C A B wf).offCoord (ix3 a b j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (tableDims N C A B wf).startIndexMap from List.mem_singleton.mpr rfl)]
    have hsi : (tableDims N C A B wf).siIdx (ix3 a b j) ⟨List.idxOf (0 : Fin 2) (tableDims N C A B wf).startIndexMap,
        List.idxOf_lt_length_iff.2 (List.mem_singleton.mpr rfl)⟩ = ix3 a b (0 : Fin 1) := by
      funext d; refine Fin.ext ?_
      match d with
      | ⟨0, _⟩ => rfl
      | ⟨1, _⟩ => rfl
      | ⟨2, _⟩ => rfl
    rw [hsi]
    rfl
  | ⟨1, _⟩ =>
    show (tableDims N C A B wf).start (ix3 a b j) idx 1 + (tableDims N C A B wf).batchCoord (ix3 a b j) 1
      + (tableDims N C A B wf).offCoord (ix3 a b j) 1 = _
    rw [GatherDims.batchCoord_eq_zero _ _ _ List.not_mem_nil]
    unfold GatherDims.start
    rw [dif_neg (show ¬ (1 : Fin 2) ∈ (tableDims N C A B wf).startIndexMap from
      fun h => Nat.one_ne_zero (congrArg Fin.val (List.mem_singleton.mp h)))]
    simp only [Nat.add_zero, Nat.zero_add]
    rfl

end Idealize.ShloMosaic.LibGather

end
-- ==== Proof.LibScatterRows.lean ====
/-
  Rows written by a scatter, read at an index.

  `x.at[idx].set(u)` for a matrix `x : [N, C]`, row numbers `idx : [K, 1]` and rows `u : [K, C]` lowers to a
  scatter whose body returns the update. Its value is a left fold over the `K · C` update entries in row-major
  order, each overwriting one entry of the matrix when its row number, read signed, is inside `[0, N)`. Read at an
  entry `(r, c)`, the fold leaves the entry `(k, c)` of the LAST update row `k` whose row number is `r`, and the
  matrix's own entry when no update row is aimed at `r`. Which `k` wins depends on the row numbers and on `r` only:
  for a fixed column the update entries meet the fold in the order of their rows.
-/
import Idealize.ShloMosaic.Lib.ValueIdx
noncomputable section
namespace Cert.LibScatterRows
open Idealize.ShloMosaic Idealize.ShloMosaic.ValueIdx
variable {α : Type}

/-! ## A fold of point writes, read at one point -/

/-- A left fold of point writes over a list `l`: step `j` overwrites the function at the point `ρ j` with `g j` when
    `ρ j` is a point, and changes nothing when it is none. Read at a point `p`, the result is `g j` for the LAST `j` of
    the list with `ρ j = some p`, and the starting function's value at `p` when there is none. -/
theorem foldl_write_apply {J I : Type} [DecidableEq I] (ρ : J → Option I) (g : J → α)
    (step : (I → α) → J → (I → α))
    (hsome : ∀ r j i, ρ j = some i → step r j = fun i' => if i' = i then g j else r i')
    (hnone : ∀ r j, ρ j = none → step r j = r)
    (x : I → α) (l : List J) (p : I) :
    l.foldl step x p
      = match (l.filter (fun j => decide (ρ j = some p))).getLast? with
        | some j => g j
        | none => x p := by
  induction l using List.reverseRecOn with
  | nil => rfl
  | append_singleton l a ih =>
    rw [List.foldl_append, List.foldl_cons, List.foldl_nil, List.filter_append, List.getLast?_append]
    cases hρ : ρ a with
    | none =>
      have hf : List.filter (fun j => decide (ρ j = some p)) [a] = [] := by
        simp [List.filter, hρ]
      rw [hnone _ _ hρ, ih, hf]
      rfl
    | some i =>
      rw [hsome _ _ _ hρ]
      by_cases hp : p = i
      · subst hp
        have hf : List.filter (fun j => decide (ρ j = some p)) [a] = [a] := by
          simp [List.filter, hρ]
        rw [hf]
        simp
      · have hf : List.filter (fun j => decide (ρ j = some p)) [a] = [] := by
          have : ¬ i = p := fun h => hp h.symm
          simp [List.filter, hρ, this]
        rw [hf]
        show (if p = i then g a else List.foldl step x l p) = _
        rw [if_neg hp, ih]
        rfl

/-! ## The last element of a filtered increasing list -/

/-- In a strictly increasing list the last element is the greatest. -/
theorem le_of_getLast?_of_pairwise {J : Type} [Preorder J] {l : List J} (hl : l.Pairwise (· < ·)) {m : J}
    (h : l.getLast? = some m) : ∀ a ∈ l, a ≤ m := by
  obtain ⟨ys, rfl⟩ := List.getLast?_eq_some_iff.mp h
  intro a ha
  rw [List.pairwise_append] at hl
  rcases List.mem_append.mp ha with ha | ha
  · exact le_of_lt (hl.2.2 a ha m (List.mem_singleton.mpr rfl))
  · rw [List.mem_singleton.mp ha]

/-- The last element satisfying `P` of a strictly increasing list: it is in the list, satisfies `P`, and every element
    of the list satisfying `P` is at most it. -/
theorem getLast?_filter_spec {J : Type} [Preorder J] {l : List J} (hl : l.Pairwise (· < ·)) (P : J → Bool) {m : J}
    (h : (l.filter P).getLast? = some m) : m ∈ l ∧ P m = true ∧ ∀ a ∈ l, P a = true → a ≤ m := by
  have hm := List.mem_filter.mp (List.mem_of_getLast? h)
  exact ⟨hm.1, hm.2, fun a ha hPa => le_of_getLast?_of_pairwise (hl.filter P) h a (List.mem_filter.mpr ⟨ha, hPa⟩)⟩

/-- Conversely, the greatest element satisfying `P` of a strictly increasing list is the last one satisfying `P`. -/
theorem getLast?_filter_eq_some {J : Type} [PartialOrder J] {l : List J} (hl : l.Pairwise (· < ·)) (P : J → Bool) {m : J}
    (hm : m ∈ l) (hP : P m = true) (hmax : ∀ a ∈ l, P a = true → a ≤ m) : (l.filter P).getLast? = some m := by
  cases h : (l.filter P).getLast? with
  | none =>
    rw [List.getLast?_eq_none_iff] at h
    have hmem : m ∈ l.filter P := List.mem_filter.mpr ⟨hm, hP⟩
    rw [h] at hmem
    exact absurd hmem List.not_mem_nil
  | some m' =>
    obtain ⟨h1, h2, h3⟩ := getLast?_filter_spec hl P h
    exact congrArg some (le_antisymm (hmax m' h1 h2) (h3 m hm hP))

/-! ## The rows a scatter of whole rows writes -/

/-- The row of an N-row matrix that an integer word names when read SIGNED, if it is inside [0, N); none otherwise. -/
def rowOf? {w : Nat} (N : Nat) (v : BitVec w) : Option (Fin N) :=
  if h : 0 ≤ v.toInt ∧ v.toInt < N then some ⟨v.toInt.toNat, by omega⟩ else none

/-- Among the K update rows, the LAST one (largest k) whose row number lands on row r; none if no update lands there. -/
def winner {w K : Nat} (N : Nat) (idx : IVec ⟨2, ![K, 1]⟩ w) (r : Fin N) : Option (Fin K) :=
  ((List.finRange K).filter (fun k => rowOf? N (idx (ix2 k (0 : Fin 1))) = some r)).getLast?

/-- The dimension numbers of x.at[idx].set(u) for x : [N, C], idx : [K, 1], u : [K, C]. -/
abbrev rowsDims (N C K : Nat) (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

section Rows
variable {N C K w : Nat} (wf : ScatterDims.WF ⟨2, ![N, C]⟩ ⟨2, ![K, 1]⟩ ⟨2, ![K, C]⟩ [1] [0] [0] 1)

/-- The window of update index `(k, c)` starts, on the row axis, at the row number `idx[k, 0]` read signed. -/
theorem start_zero (idx : IVec ⟨2, ![K, 1]⟩ w) (k : Fin K) (c : Fin C) :
    (rowsDims N C K wf).start (ix2 k c) idx 0 = (idx (ix2 k (0 : Fin 1))).toInt := by
  unfold ScatterDims.start
  rw [dif_pos (show (0 : Fin 2) ∈ (rowsDims N C K wf).scatterDimsToOperandDims from List.mem_singleton.mpr rfl)]
  have hsi : (rowsDims N C K wf).siIdx (ix2 k c) ⟨List.idxOf (0 : Fin 2) (rowsDims N C K wf).scatterDimsToOperandDims,
      List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- … and, on the column axis, at 0. -/
theorem start_one (idx : IVec ⟨2, ![K, 1]⟩ w) (k : Fin K) (c : Fin C) :
    (rowsDims N C K wf).start (ix2 k c) idx 1 = 0 := by
  unfold ScatterDims.start
  have h1 : ¬ (1 : Fin 2) ∈ (rowsDims N C K wf).scatterDimsToOperandDims := by
    show ¬ (1 : Fin 2) ∈ ([0] : List (Fin 2))
    decide
  rw [dif_neg h1]

/-- The window coordinate of update index `(k, c)` is 0 on the row axis (an inserted axis) … -/
theorem window_zero (k : Fin K) (c : Fin C) : (rowsDims N C K wf).window (ix2 k c) 0 = 0 := by
  unfold ScatterDims.window
  have h0 : ¬ (0 : Fin 2) ∈ (rowsDims N C K wf).sKept := by
    show ¬ (0 : Fin 2) ∈ (List.finRange 2).filter (· ∉ ([0] : List (Fin 2)))
    decide
  rw [dif_neg h0]

/-- … and `c` on the column axis. -/
theorem window_one (k : Fin K) (c : Fin C) : (rowsDims N C K wf).window (ix2 k c) 1 = c.val := by
  unfold ScatterDims.window
  have h1 : (1 : Fin 2) ∈ (rowsDims N C K wf).sKept := by
    show (1 : Fin 2) ∈ (List.finRange 2).filter (· ∉ ([0] : List (Fin 2)))
    decide
  rw [dif_pos h1]
  rfl

/-- Where update index `(k, c)` lands: at `(r, c)` when the row number `idx[k, 0]` names the row `r` of the operand,
    nowhere when it names none. -/
theorem resultIdx?_rows (idx : IVec ⟨2, ![K, 1]⟩ w) (k : Fin K) (c : Fin C) :
    (rowsDims N C K wf).resultIdx? (ix2 k c) idx = (rowOf? N (idx (ix2 k (0 : Fin 1)))).map (fun r => ix2 r c) := by
  have hcol : (c.val : Int) < (C : Int) := by exact_mod_cast c.isLt
  unfold ScatterDims.resultIdx? rowOf?
  by_cases h : 0 ≤ (idx (ix2 k (0 : Fin 1))).toInt ∧ (idx (ix2 k (0 : Fin 1))).toInt < N
  · have hall : ∀ a : Fin 2, 0 ≤ (rowsDims N C K wf).start (ix2 k c) idx a + (rowsDims N C K wf).window (ix2 k c) a
        ∧ (rowsDims N C K wf).start (ix2 k c) idx a + (rowsDims N C K wf).window (ix2 k c) a < (⟨2, ![N, C]⟩ : Shape).size a := by
      intro a
      match a with
      | ⟨0, _⟩ =>
        show 0 ≤ (rowsDims N C K wf).start (ix2 k c) idx 0 + ((rowsDims N C K wf).window (ix2 k c) 0 : Nat)
          ∧ (rowsDims N C K wf).start (ix2 k c) idx 0 + ((rowsDims N C K wf).window (ix2 k c) 0 : Nat) < (N : Int)
        rw [start_zero, window_zero]; omega
      | ⟨1, _⟩ =>
        show 0 ≤ (rowsDims N C K wf).start (ix2 k c) idx 1 + ((rowsDims N C K wf).window (ix2 k c) 1 : Nat)
          ∧ (rowsDims N C K wf).start (ix2 k c) idx 1 + ((rowsDims N C K wf).window (ix2 k c) 1 : Nat) < (C : Int)
        rw [start_one, window_one]; omega
    rw [dif_pos hall, dif_pos h]
    refine congrArg some ?_
    funext a; refine Fin.ext ?_
    match a with
    | ⟨0, _⟩ =>
      show ((rowsDims N C K wf).start (ix2 k c) idx 0 + ((rowsDims N C K wf).window (ix2 k c) 0 : Nat)).toNat = _
      rw [start_zero, window_zero]; simp
    | ⟨1, _⟩ =>
      show ((rowsDims N C K wf).start (ix2 k c) idx 1 + ((rowsDims N C K wf).window (ix2 k c) 1 : Nat)).toNat = c.val
      rw [start_one, window_one]; omega
  · rw [dif_neg h, dif_neg]
    · rfl
    · intro hall
      have h0 := hall 0
      have h0' : 0 ≤ (rowsDims N C K wf).start (ix2 k c) idx 0 + ((rowsDims N C K wf).window (ix2 k c) 0 : Nat)
          ∧ (rowsDims N C K wf).start (ix2 k c) idx 0 + ((rowsDims N C K wf).window (ix2 k c) 0 : Nat) < (N : Int) := h0
      rw [start_zero, window_zero] at h0'
      exact h ⟨by omega, by omega⟩

end Rows

section Main
variable {N C K w : Nat}

/-- Two rank-2 indices are equal exactly when their coordinates are. -/
theorem ix2_eq_iff {n0 n1 : Nat} (a a' : Fin n0) (b b' : Fin n1) : ix2 a b = ix2 a' b' ↔ a = a' ∧ b = b' :=
  ⟨fun h => ⟨congrFun h 0, congrFun h 1⟩, fun h => by rw [h.1, h.2]⟩

/-- The row-major position of `(k, c)` among the `K × C` update indices is `k * C + c`. -/
theorem rowMajor_ix2_val (k : Fin K) (c : Fin C) :
    ((⟨2, ![K, C]⟩ : Shape).rowMajor (ix2 k c)).val = k.val * C + c.val :=
  (Shape.rowMajor_val_two _).trans rfl

/-- Update index `(k, c')` lands on `(r, c)` exactly when its row number names the row `r` and its column is `c`. -/
theorem lands_iff (wf : ScatterDims.WF ⟨2, ![N, C]⟩ ⟨2, ![K, 1]⟩ ⟨2, ![K, C]⟩ [1] [0] [0] 1)
    (idx : IVec ⟨2, ![K, 1]⟩ w) (r : Fin N) (c : Fin C) (k : Fin K) (c' : Fin C) :
    (rowsDims N C K wf).resultIdx? (ix2 k c') idx = some (ix2 r c)
      ↔ rowOf? N (idx (ix2 k (0 : Fin 1))) = some r ∧ c' = c := by
  rw [resultIdx?_rows]
  cases h : rowOf? N (idx (ix2 k (0 : Fin 1))) with
  | none => simp
  | some r' => simp [ix2_eq_iff]

end Main

/-- Rows written by a scatter whose body returns the update: entry (r, c) of the result is entry (k, c) of the updates for the LAST update row k that lands on r, and the operand's entry where none does. The winning k does not depend on the column c. -/
theorem scatter_set_rows_apply {N C K w : Nat}
    (wf : ScatterDims.WF ⟨2, ![N, C]⟩ ⟨2, ![K, 1]⟩ ⟨2, ![K, C]⟩ [1] [0] [0] 1)
    (x : (⟨2, ![N, C]⟩ : Shape).Idx → α) (idx : IVec ⟨2, ![K, 1]⟩ w) (u : (⟨2, ![K, C]⟩ : Shape).Idx → α)
    (r : Fin N) (c : Fin C) :
    Host.scatter (rowsDims N C K wf) (fun _ b => b) x idx u (ix2 r c)
      = match winner N idx r with
        | some k => u (ix2 k c)
        | none => x (ix2 r c) := by
  unfold Host.scatter
  refine (foldl_write_apply
      (fun n => (rowsDims N C K wf).resultIdx? ((⟨2, ![K, C]⟩ : Shape).rowMajor.symm n) idx)
      (fun n => u ((⟨2, ![K, C]⟩ : Shape).rowMajor.symm n)) _ ?_ ?_ x _ (ix2 r c)).trans ?_
  · intro r' n i h
    simp only [h]
  · intro r' n h
    simp only [h]
  · -- every update index is `(k, c')` for a row `k` and a column `c'`
    have hsplit : ∀ n : Fin (⟨2, ![K, C]⟩ : Shape).numel, ∃ (k : Fin K) (c' : Fin C),
        (⟨2, ![K, C]⟩ : Shape).rowMajor.symm n = ix2 k c' := fun n => ⟨_, _, eq_ix2 _⟩
    cases hw : winner N idx r with
    | none =>
      -- no update row lands on `r`, so no update index lands on `(r, c)`
      unfold winner at hw
      rw [List.getLast?_eq_none_iff, List.filter_eq_nil_iff] at hw
      have hnil : (List.finRange (⟨2, ![K, C]⟩ : Shape).numel).filter (fun n =>
          decide ((rowsDims N C K wf).resultIdx? ((⟨2, ![K, C]⟩ : Shape).rowMajor.symm n) idx = some (ix2 r c))) = [] := by
        rw [List.filter_eq_nil_iff]
        intro n _ hn
        obtain ⟨k, c', hkc⟩ := hsplit n
        have hn' := of_decide_eq_true hn
        rw [hkc] at hn'
        exact hw k (List.mem_finRange k) (decide_eq_true ((lands_iff wf idx r c k c').mp hn').1)
      rw [hnil]
      rfl
    | some k =>
      -- `k` is the greatest update row landing on `r`; `(k, c)` is then the last update index landing on `(r, c)`
      unfold winner at hw
      obtain ⟨-, hPk, hmax⟩ := getLast?_filter_spec (List.sortedLT_finRange K).pairwise _ hw
      have hlast : ((List.finRange (⟨2, ![K, C]⟩ : Shape).numel).filter (fun n =>
          decide ((rowsDims N C K wf).resultIdx? ((⟨2, ![K, C]⟩ : Shape).rowMajor.symm n) idx = some (ix2 r c)))).getLast?
            = some ((⟨2, ![K, C]⟩ : Shape).rowMajor (ix2 k c)) := by
        refine getLast?_filter_eq_some (List.sortedLT_finRange _).pairwise _ (List.mem_finRange _) ?_ ?_
        · refine decide_eq_true ?_
          rw [Equiv.symm_apply_apply]
          exact (lands_iff wf idx r c k c).mpr ⟨of_decide_eq_true hPk, rfl⟩
        · intro n _ hn
          obtain ⟨k', c', hkc⟩ := hsplit n
          have hn' := of_decide_eq_true hn
          rw [hkc] at hn'
          obtain ⟨hk', hc'⟩ := (lands_iff wf idx r c k' c').mp hn'
          have hle : k' ≤ k := hmax k' (List.mem_finRange k') (decide_eq_true hk')
          have hn_eq : n = (⟨2, ![K, C]⟩ : Shape).rowMajor (ix2 k' c') := by
            rw [← hkc, Equiv.apply_symm_apply]
          rw [hn_eq, Fin.le_def, rowMajor_ix2_val, rowMajor_ix2_val, hc']
          have := Nat.mul_le_mul_right C (Fin.le_def.mp hle)
          omega
      rw [hlast]
      show u ((⟨2, ![K, C]⟩ : Shape).rowMajor.symm ((⟨2, ![K, C]⟩ : Shape).rowMajor (ix2 k c))) = u (ix2 k c)
      rw [Equiv.symm_apply_apply]

end Cert.LibScatterRows
end
-- ==== Proof.LibEdgeSums.lean ====
/-
  A value looked up in a vector, and sums collected by a scatter, read at an index.

  `x[idx]` of a vector `x : [N]` at a list of positions `idx : [R, 1]` is, at `r`, the entry of `x` at the position
  `idx[r, 0]` read as a signed integer and clamped into `[0, N − 1]`.

  `x.at[idx].add(u)` adds to every entry of `x` the update entries aimed at it. When the updates are whole rows
  `u : [K, C]` aimed by row numbers `idx : [K, 1]` at the rows of `x : [N, C]`, an update entry `(k, c')` reaches the entry
  `(r, c)` exactly when the row number `idx[k, 0]`, read signed, is `r` and `c' = c`; so the entry `(r, c)` of the result
  is `x[r, c]` plus the sum of `u[k, c]` over the update rows `k` whose row number is `r`. The same holds with slabs
  `[A, B]` in place of rows, and with single entries in place of rows. All of it over exact extended reals, where the
  order of the additions does not matter.
-/
import Idealize.ShloMosaic.Lib.ValueIdx
import proofs.«103897_j22316650070138_2_alg».proof.Proof.LibGather
import proofs.«103897_j22316650070138_2_alg».proof.Proof.LibScatterRows

noncomputable section

open scoped BigOperators

namespace Cert.LibEdgeSums

open Idealize.ShloMosaic Idealize.ShloMosaic.ValueIdx

/-! ## A vector read at a list of positions -/

/-- The dimension numbers of `x[idx]` for a vector `x : [N]`, positions `idx : [R, 1]`, result `[R]`. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather from a vector at a list of positions, read at `r`: the vector's entry at the position `idx[r, 0]`,
    read signed and clamped into `[0, N − 1]`. -/
theorem gather_vec_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r) = x (ix1 (LibGather.rowOf N hN (idx (ix2 r (0 : Fin 1))))) := by
  unfold Host.gather
  congr 1
  funext a
  obtain rfl : a = 0 := Subsingleton.elim _ _
  refine Fin.ext ?_
  show (vecDims N R wf).start (ix1 r) idx 0 + (vecDims N R wf).batchCoord (ix1 r) 0
    + (vecDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N R wf).startIndexMap from List.mem_singleton.mpr rfl)]
  have hsi : (vecDims N R wf).siIdx (ix1 r) ⟨List.idxOf (0 : Fin 1) (vecDims N R wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-! ## Rows added by a scatter -/

/-- The accumulating scatter of whole rows, read at `(r, c)`: the operand's entry plus the sum, over the update rows
    `k` whose row number `idx[k, 0]` (read signed) is `r`, of the update entries `u[k, c]`. -/
theorem scatterAdd_rows_apply {N C K w : Nat}
    (wf : ScatterDims.WF ⟨2, ![N, C]⟩ ⟨2, ![K, 1]⟩ ⟨2, ![K, C]⟩ [1] [0] [0] 1)
    (x : (⟨2, ![N, C]⟩ : Shape).Idx → EReal) (idx : IVec ⟨2, ![K, 1]⟩ w) (u : (⟨2, ![K, C]⟩ : Shape).Idx → EReal)
    (r : Fin N) (c : Fin C) :
    Ideal.hostScatterAdd (LibScatterRows.rowsDims N C K wf) x idx u (ix2 r c)
      = x (ix2 r c) + ∑ k ∈ Finset.univ.filter
          (fun k : Fin K => LibScatterRows.rowOf? N (idx (ix2 k (0 : Fin 1))) = some r), u (ix2 k c) := by
  unfold Ideal.hostScatterAdd
  congr 1
  -- the update entries reaching `(r, c)` are the `(k, c)` with `k` an update row aimed at `r`
  refine Finset.sum_nbij' (fun j => j 0) (fun k => ix2 k c) ?_ ?_ ?_ ?_ ?_
  · intro j hj
    obtain ⟨k, c', rfl⟩ : ∃ k c', j = ix2 k c' := ⟨_, _, eq_ix2 j⟩
    have h := (LibScatterRows.lands_iff wf idx r c k c').mp (Finset.mem_filter.mp hj).2
    exact Finset.mem_filter.mpr ⟨Finset.mem_univ _, h.1⟩
  · intro k hk
    exact Finset.mem_filter.mpr ⟨Finset.mem_univ _,
      (LibScatterRows.lands_iff wf idx r c k c).mpr ⟨(Finset.mem_filter.mp hk).2, rfl⟩⟩
  · intro j hj
    obtain ⟨k, c', rfl⟩ : ∃ k c', j = ix2 k c' := ⟨_, _, eq_ix2 j⟩
    have h := (LibScatterRows.lands_iff wf idx r c k c').mp (Finset.mem_filter.mp hj).2
    show ix2 k c = ix2 k c'
    rw [h.2]
  · intro k _
    rfl
  · intro j hj
    obtain ⟨k, c', rfl⟩ : ∃ k c', j = ix2 k c' := ⟨_, _, eq_ix2 j⟩
    have h := (LibScatterRows.lands_iff wf idx r c k c').mp (Finset.mem_filter.mp hj).2
    show u (ix2 k c') = u (ix2 k c)
    rw [h.2]

/-! ## Slabs added by a scatter -/

/-- The dimension numbers of `x.at[idx].add(u)` for `x : [N, A, B]`, row numbers `idx : [K, 1]`, slabs `u : [K, A, B]`. -/
abbrev slabDims (N A B K : Nat)
    (wf : ScatterDims.WF ⟨3, ![N, A, B]⟩ ⟨2, ![K, 1]⟩ ⟨3, ![K, A, B]⟩ [1, 2] [0] [0] 1) :
    ScatterDims ⟨3, ![N, A, B]⟩ ⟨2, ![K, 1]⟩ ⟨3, ![K, A, B]⟩ where
  updateWindowDims := [1, 2]
  insertedWindowDims := [0]
  scatterDimsToOperandDims := [0]
  indexVectorDim := 1
  wf := wf

section Slab
variable {N A B K w : Nat}
  (wf : ScatterDims.WF ⟨3, ![N, A, B]⟩ ⟨2, ![K, 1]⟩ ⟨3, ![K, A, B]⟩ [1, 2] [0] [0] 1)

/-- The window of update index `(k, a, b)` starts, on the first axis, at the row number `idx[k, 0]` read signed. -/
theorem slab_start_zero (idx : IVec ⟨2, ![K, 1]⟩ w) (k : Fin K) (a : Fin A) (b : Fin B) :
    (slabDims N A B K wf).start (ix3 k a b) idx 0 = (idx (ix2 k (0 : Fin 1))).toInt := by
  unfold ScatterDims.start
  rw [dif_pos (show (0 : Fin 3) ∈ (slabDims N A B K wf).scatterDimsToOperandDims from List.mem_singleton.mpr rfl)]
  have hsi : (slabDims N A B K wf).siIdx (ix3 k a b)
      ⟨List.idxOf (0 : Fin 3) (slabDims N A B K wf).scatterDimsToOperandDims,
        List.idxOf_lt_length_iff.2 (List.mem_singleton.mpr rfl)⟩ = ix2 k (0 : Fin 1) := by
    funext e; refine Fin.ext ?_
    match e with
    | ⟨0, _⟩ => rfl
    | ⟨1, _⟩ => rfl
  rw [hsi]

/-- … on the second axis, at 0 … -/
theorem slab_start_one (idx : IVec ⟨2, ![K, 1]⟩ w) (k : Fin K) (a : Fin A) (b : Fin B) :
    (slabDims N A B K wf).start (ix3 k a b) idx 1 = 0 := by
  unfold ScatterDims.start
  have h1 : ¬ (1 : Fin 3) ∈ (slabDims N A B K wf).scatterDimsToOperandDims := by
    show ¬ (1 : Fin 3) ∈ ([0] : List (Fin 3))
    decide
  rw [dif_neg h1]

/-- … and on the third axis, at 0. -/
theorem slab_start_two (idx : IVec ⟨2, ![K, 1]⟩ w) (k : Fin K) (a : Fin A) (b : Fin B) :
    (slabDims N A B K wf).start (ix3 k a b) idx 2 = 0 := by
  unfold ScatterDims.start
  have h2 : ¬ (2 : Fin 3) ∈ (slabDims N A B K wf).scatterDimsToOperandDims := by
    show ¬ (2 : Fin 3) ∈ ([0] : List (Fin 3))
    decide
  rw [dif_neg h2]

/-- The window coordinate of update index `(k, a, b)` is 0 on the first axis (an inserted axis) … -/
theorem slab_window_zero (k : Fin K) (a : Fin A) (b : Fin B) :
    (slabDims N A B K wf).window (ix3 k a b) 0 = 0 := by
  unfold ScatterDims.window
  have h0 : ¬ (0 : Fin 3) ∈ (slabDims N A B K wf).sKept := by
    show ¬ (0 : Fin 3) ∈ (List.finRange 3).filter (· ∉ ([0] : List (Fin 3)))
    decide
  rw [dif_neg h0]

/-- … `a` on the second axis … -/
theorem slab_window_one (k : Fin K) (a : Fin A) (b : Fin B) :
    (slabDims N A B K wf).window (ix3 k a b) 1 = a.val := by
  unfold ScatterDims.window
  have h1 : (1 : Fin 3) ∈ (slabDims N A B K wf).sKept := by
    show (1 : Fin 3) ∈ (List.finRange 3).filter (· ∉ ([0] : List (Fin 3)))
    decide
  rw [dif_pos h1]
  rfl

/-- … and `b` on the third axis. -/
theorem slab_window_two (k : Fin K) (a : Fin A) (b : Fin B) :
    (slabDims N A B K wf).window (ix3 k a b) 2 = b.val := by
  unfold ScatterDims.window
  have h2 : (2 : Fin 3) ∈ (slabDims N A B K wf).sKept := by
    show (2 : Fin 3) ∈ (List.finRange 3).filter (· ∉ ([0] : List (Fin 3)))
    decide
  rw [dif_pos h2]
  rfl

/-- Where update index `(k, a, b)` lands: at `(r, a, b)` when the row number `idx[k, 0]` names the row `r` of the
    operand, nowhere when it names none. -/
theorem resultIdx?_slab (idx : IVec ⟨2, ![K, 1]⟩ w) (k : Fin K) (a : Fin A) (b : Fin B) :
    (slabDims N A B K wf).resultIdx? (ix3 k a b) idx
      = (LibScatterRows.rowOf? N (idx (ix2 k (0 : Fin 1)))).map (fun r => ix3 r a b) := by
  have ha : (a.val : Int) < (A : Int) := by exact_mod_cast a.isLt
  have hb : (b.val : Int) < (B : Int) := by exact_mod_cast b.isLt
  unfold ScatterDims.resultIdx? LibScatterRows.rowOf?
  by_cases h : 0 ≤ (idx (ix2 k (0 : Fin 1))).toInt ∧ (idx (ix2 k (0 : Fin 1))).toInt < N
  · have hall : ∀ e : Fin 3,
        0 ≤ (slabDims N A B K wf).start (ix3 k a b) idx e + (slabDims N A B K wf).window (ix3 k a b) e
        ∧ (slabDims N A B K wf).start (ix3 k a b) idx e + (slabDims N A B K wf).window (ix3 k a b) e
            < (⟨3, ![N, A, B]⟩ : Shape).size e := by
      intro e
      match e with
      | ⟨0, _⟩ =>
        show 0 ≤ (slabDims N A B K wf).start (ix3 k a b) idx 0 + ((slabDims N A B K wf).window (ix3 k a b) 0 : Nat)
          ∧ (slabDims N A B K wf).start (ix3 k a b) idx 0 + ((slabDims N A B K wf).window (ix3 k a b) 0 : Nat) < (N : Int)
        rw [slab_start_zero, slab_window_zero]; omega
      | ⟨1, _⟩ =>
        show 0 ≤ (slabDims N A B K wf).start (ix3 k a b) idx 1 + ((slabDims N A B K wf).window (ix3 k a b) 1 : Nat)
          ∧ (slabDims N A B K wf).start (ix3 k a b) idx 1 + ((slabDims N A B K wf).window (ix3 k a b) 1 : Nat) < (A : Int)
        rw [slab_start_one, slab_window_one]; omega
      | ⟨2, _⟩ =>
        show 0 ≤ (slabDims N A B K wf).start (ix3 k a b) idx 2 + ((slabDims N A B K wf).window (ix3 k a b) 2 : Nat)
          ∧ (slabDims N A B K wf).start (ix3 k a b) idx 2 + ((slabDims N A B K wf).window (ix3 k a b) 2 : Nat) < (B : Int)
        rw [slab_start_two, slab_window_two]; omega
    rw [dif_pos hall, dif_pos h]
    refine congrArg some ?_
    funext e; refine Fin.ext ?_
    match e with
    | ⟨0, _⟩ =>
      show ((slabDims N A B K wf).start (ix3 k a b) idx 0 + ((slabDims N A B K wf).window (ix3 k a b) 0 : Nat)).toNat = _
      rw [slab_start_zero, slab_window_zero]; simp
    | ⟨1, _⟩ =>
      show ((slabDims N A B K wf).start (ix3 k a b) idx 1 + ((slabDims N A B K wf).window (ix3 k a b) 1 : Nat)).toNat = a.val
      rw [slab_start_one, slab_window_one]; omega
    | ⟨2, _⟩ =>
      show ((slabDims N A B K wf).start (ix3 k a b) idx 2 + ((slabDims N A B K wf).window (ix3 k a b) 2 : Nat)).toNat = b.val
      rw [slab_start_two, slab_window_two]; omega
  · rw [dif_neg h, dif_neg]
    · rfl
    · intro hall
      have h0 : 0 ≤ (slabDims N A B K wf).start (ix3 k a b) idx 0 + ((slabDims N A B K wf).window (ix3 k a b) 0 : Nat)
          ∧ (slabDims N A B K wf).start (ix3 k a b) idx 0 + ((slabDims N A B K wf).window (ix3 k a b) 0 : Nat) < (N : Int) :=
        hall 0
      rw [slab_start_zero, slab_window_zero] at h0
      exact h ⟨by omega, by omega⟩

end Slab

/-- Two rank-3 indices are equal exactly when their coordinates are. -/
theorem ix3_eq_iff {n0 n1 n2 : Nat} (a a' : Fin n0) (b b' : Fin n1) (c c' : Fin n2) :
    ix3 a b c = ix3 a' b' c' ↔ a = a' ∧ b = b' ∧ c = c' :=
  ⟨fun h => ⟨congrFun h 0, congrFun h 1, congrFun h 2⟩, fun h => by rw [h.1, h.2.1, h.2.2]⟩

/-- Update index `(k, a', b')` lands on `(r, a, b)` exactly when its row number names the row `r` and its slab
    coordinates are `(a, b)`. -/
theorem lands_iff_slab {N A B K w : Nat}
    (wf : ScatterDims.WF ⟨3, ![N, A, B]⟩ ⟨2, ![K, 1]⟩ ⟨3, ![K, A, B]⟩ [1, 2] [0] [0] 1)
    (idx : IVec ⟨2, ![K, 1]⟩ w) (r : Fin N) (a : Fin A) (b : Fin B) (k : Fin K) (a' : Fin A) (b' : Fin B) :
    (slabDims N A B K wf).resultIdx? (ix3 k a' b') idx = some (ix3 r a b)
      ↔ LibScatterRows.rowOf? N (idx (ix2 k (0 : Fin 1))) = some r ∧ a' = a ∧ b' = b := by
  rw [resultIdx?_slab]
  cases h : LibScatterRows.rowOf? N (idx (ix2 k (0 : Fin 1))) with
  | none => simp
  | some r' => simp [ix3_eq_iff]

/-- The accumulating scatter of whole slabs, read at `(r, a, b)`: the operand's entry plus the sum, over the update
    slabs `k` whose row number `idx[k, 0]` (read signed) is `r`, of the update entries `u[k, a, b]`. -/
theorem scatterAdd_slab_apply {N A B K w : Nat}
    (wf : ScatterDims.WF ⟨3, ![N, A, B]⟩ ⟨2, ![K, 1]⟩ ⟨3, ![K, A, B]⟩ [1, 2] [0] [0] 1)
    (x : (⟨3, ![N, A, B]⟩ : Shape).Idx → EReal) (idx : IVec ⟨2, ![K, 1]⟩ w)
    (u : (⟨3, ![K, A, B]⟩ : Shape).Idx → EReal) (r : Fin N) (a : Fin A) (b : Fin B) :
    Ideal.hostScatterAdd (slabDims N A B K wf) x idx u (ix3 r a b)
      = x (ix3 r a b) + ∑ k ∈ Finset.univ.filter
          (fun k : Fin K => LibScatterRows.rowOf? N (idx (ix2 k (0 : Fin 1))) = some r), u (ix3 k a b) := by
  unfold Ideal.hostScatterAdd
  congr 1
  -- the update entries reaching `(r, a, b)` are the `(k, a, b)` with `k` an update slab aimed at `r`
  refine Finset.sum_nbij' (fun j => j 0) (fun k => ix3 k a b) ?_ ?_ ?_ ?_ ?_
  · intro j hj
    obtain ⟨k, a', b', rfl⟩ : ∃ k a' b', j = ix3 k a' b' := ⟨_, _, _, eq_ix3 j⟩
    have h := (lands_iff_slab wf idx r a b k a' b').mp (Finset.mem_filter.mp hj).2
    exact Finset.mem_filter.mpr ⟨Finset.mem_univ _, h.1⟩
  · intro k hk
    exact Finset.mem_filter.mpr ⟨Finset.mem_univ _,
      (lands_iff_slab wf idx r a b k a b).mpr ⟨(Finset.mem_filter.mp hk).2, rfl, rfl⟩⟩
  · intro j hj
    obtain ⟨k, a', b', rfl⟩ : ∃ k a' b', j = ix3 k a' b' := ⟨_, _, _, eq_ix3 j⟩
    have h := (lands_iff_slab wf idx r a b k a' b').mp (Finset.mem_filter.mp hj).2
    show ix3 k a b = ix3 k a' b'
    rw [h.2.1, h.2.2]
  · intro k _
    rfl
  · intro j hj
    obtain ⟨k, a', b', rfl⟩ : ∃ k a' b', j = ix3 k a' b' := ⟨_, _, _, eq_ix3 j⟩
    have h := (lands_iff_slab wf idx r a b k a' b').mp (Finset.mem_filter.mp hj).2
    show u (ix3 k a' b') = u (ix3 k a b)
    rw [h.2.1, h.2.2]

/-! ## Single entries added by a scatter -/

/-- The dimension numbers of `x.at[idx].add(u)` for a vector `x : [N]`, positions `idx : [K, 1]`, entries `u : [K]`. -/
abbrev pointDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

section Point
variable {N K w : Nat} (wf : ScatterDims.WF ⟨1, ![N]⟩ ⟨2, ![K, 1]⟩ ⟨1, ![K]⟩ [] [0] [0] 1)

/-- The window of update index `k` starts at the position `idx[k, 0]` read signed. -/
theorem point_start (idx : IVec ⟨2, ![K, 1]⟩ w) (k : Fin K) :
    (pointDims N K wf).start (ix1 k) idx 0 = (idx (ix2 k (0 : Fin 1))).toInt := by
  unfold ScatterDims.start
  rw [dif_pos (show (0 : Fin 1) ∈ (pointDims N K wf).scatterDimsToOperandDims from List.mem_singleton.mpr rfl)]
  have hsi : (pointDims N K wf).siIdx (ix1 k)
      ⟨List.idxOf (0 : Fin 1) (pointDims N K wf).scatterDimsToOperandDims,
        List.idxOf_lt_length_iff.2 (List.mem_singleton.mpr rfl)⟩ = ix2 k (0 : Fin 1) := by
    funext e; refine Fin.ext ?_
    match e with
    | ⟨0, _⟩ => rfl
    | ⟨1, _⟩ => rfl
  rw [hsi]

/-- Its window coordinate is 0: the one axis is an inserted axis. -/
theorem point_window (k : Fin K) : (pointDims N K wf).window (ix1 k) 0 = 0 := by
  unfold ScatterDims.window
  have h0 : ¬ (0 : Fin 1) ∈ (pointDims N K wf).sKept := by
    show ¬ (0 : Fin 1) ∈ (List.finRange 1).filter (· ∉ ([0] : List (Fin 1)))
    decide
  rw [dif_neg h0]

/-- Where update index `k` lands: at `r` when the position `idx[k, 0]` names the entry `r` of the operand, nowhere
    when it names none. -/
theorem resultIdx?_point (idx : IVec ⟨2, ![K, 1]⟩ w) (k : Fin K) :
    (pointDims N K wf).resultIdx? (ix1 k) idx
      = (LibScatterRows.rowOf? N (idx (ix2 k (0 : Fin 1)))).map (fun r => ix1 r) := by
  unfold ScatterDims.resultIdx? LibScatterRows.rowOf?
  by_cases h : 0 ≤ (idx (ix2 k (0 : Fin 1))).toInt ∧ (idx (ix2 k (0 : Fin 1))).toInt < N
  · have hall : ∀ e : Fin 1,
        0 ≤ (pointDims N K wf).start (ix1 k) idx e + (pointDims N K wf).window (ix1 k) e
        ∧ (pointDims N K wf).start (ix1 k) idx e + (pointDims N K wf).window (ix1 k) e
            < (⟨1, ![N]⟩ : Shape).size e := by
      intro e
      match e with
      | ⟨0, _⟩ =>
        show 0 ≤ (pointDims N K wf).start (ix1 k) idx 0 + ((pointDims N K wf).window (ix1 k) 0 : Nat)
          ∧ (pointDims N K wf).start (ix1 k) idx 0 + ((pointDims N K wf).window (ix1 k) 0 : Nat) < (N : Int)
        rw [point_start, point_window]; omega
    rw [dif_pos hall, dif_pos h]
    refine congrArg some ?_
    funext e; refine Fin.ext ?_
    match e with
    | ⟨0, _⟩ =>
      show ((pointDims N K wf).start (ix1 k) idx 0 + ((pointDims N K wf).window (ix1 k) 0 : Nat)).toNat = _
      rw [point_start, point_window]; simp
  · rw [dif_neg h, dif_neg]
    · rfl
    · intro hall
      have h0 : 0 ≤ (pointDims N K wf).start (ix1 k) idx 0 + ((pointDims N K wf).window (ix1 k) 0 : Nat)
          ∧ (pointDims N K wf).start (ix1 k) idx 0 + ((pointDims N K wf).window (ix1 k) 0 : Nat) < (N : Int) :=
        hall 0
      rw [point_start, point_window] at h0
      exact h ⟨by omega, by omega⟩

end Point

/-- Two rank-1 indices are equal exactly when their coordinates are. -/
theorem ix1_eq_iff {n : Nat} (a a' : Fin n) : ix1 a = ix1 a' ↔ a = a' :=
  ⟨fun h => congrFun h 0, fun h => by rw [h]⟩

/-- Update index `k` lands on `r` exactly when its position names the entry `r`. -/
theorem lands_iff_point {N K w : Nat} (wf : ScatterDims.WF ⟨1, ![N]⟩ ⟨2, ![K, 1]⟩ ⟨1, ![K]⟩ [] [0] [0] 1)
    (idx : IVec ⟨2, ![K, 1]⟩ w) (r : Fin N) (k : Fin K) :
    (pointDims N K wf).resultIdx? (ix1 k) idx = some (ix1 r)
      ↔ LibScatterRows.rowOf? N (idx (ix2 k (0 : Fin 1))) = some r := by
  rw [resultIdx?_point]
  cases h : LibScatterRows.rowOf? N (idx (ix2 k (0 : Fin 1))) with
  | none => simp
  | some r' => simp [ix1_eq_iff]

/-- The accumulating scatter of single entries into a vector, read at `r`: the operand's entry plus the sum, over
    the updates `k` whose position `idx[k, 0]` (read signed) is `r`, of the update entries `u[k]`. -/
theorem scatterAdd_vec_apply {N K w : Nat} (wf : ScatterDims.WF ⟨1, ![N]⟩ ⟨2, ![K, 1]⟩ ⟨1, ![K]⟩ [] [0] [0] 1)
    (x : (⟨1, ![N]⟩ : Shape).Idx → EReal) (idx : IVec ⟨2, ![K, 1]⟩ w) (u : (⟨1, ![K]⟩ : Shape).Idx → EReal)
    (r : Fin N) :
    Ideal.hostScatterAdd (pointDims N K wf) x idx u (ix1 r)
      = x (ix1 r) + ∑ k ∈ Finset.univ.filter
          (fun k : Fin K => LibScatterRows.rowOf? N (idx (ix2 k (0 : Fin 1))) = some r), u (ix1 k) := by
  unfold Ideal.hostScatterAdd
  congr 1
  refine Finset.sum_nbij' (fun j => j 0) (fun k => ix1 k) ?_ ?_ ?_ ?_ ?_
  · intro j hj
    obtain ⟨k, rfl⟩ : ∃ k, j = ix1 k := ⟨_, eq_ix1 j⟩
    exact Finset.mem_filter.mpr ⟨Finset.mem_univ _, (lands_iff_point wf idx r k).mp (Finset.mem_filter.mp hj).2⟩
  · intro k hk
    exact Finset.mem_filter.mpr ⟨Finset.mem_univ _, (lands_iff_point wf idx r k).mpr (Finset.mem_filter.mp hk).2⟩
  · intro j _
    exact (eq_ix1 j).symm
  · intro k _
    rfl
  · intro j _
    exact congrArg u (eq_ix1 j)

end Cert.LibEdgeSums

end
-- ==== Proof.Pool.lean ====
/-
  The mean pool, the projection and the bias: the two programs' last stretches, and the law that joins them.

  Both programs sum rows of a node array into the rows of a graph array with an accumulating scatter by the nodes' graph
  numbers, divide by the number of nodes of the graph (never below one) and add a bias row. The kernel's program pools the
  PROJECTED features (six per node); the reference pools the 128 features and projects the means. At a graph `g` with
  member nodes `M g` (those whose graph number, read signed, is `g`) and count `c g = max |M g| 1`:
      kernel     (∑_{n ∈ M g} ∑ₑ h[n,e] · Wl[e,o]) / c g + bl[o]
      reference  ∑ₑ ((∑_{n ∈ M g} h[n,e]) / c g) · Wl[e,o] + bl[o]
  equal when the features and the weights are real (`mean_proj`).
-/
import proofs.«103897_j22316650070138_2_alg».proof.KernelIdeal
import proofs.«103897_j22316650070138_2_alg».proof.Proof.Gen.KernelIdeal
import proofs.«103897_j22316650070138_2_alg».proof.Proof.Gen.ReferenceIdeal.Read
import proofs.«103897_j22316650070138_2_alg».proof.Proof.Spec
import proofs.«103897_j22316650070138_2_alg».proof.Proof.Reals
import proofs.«103897_j22316650070138_2_alg».proof.Proof.LibEdgeSums
import proofs.«103897_j22316650070138_2_alg».proof.Proof.LibHostDot
import Idealize.ShloMosaic.Lib.Pipeline.Value

noncomputable section

namespace Cert.Gin.Pool

open Idealize.ShloMosaic Idealize.ShloMosaic.ValueIdx Cert.Gin

/-! ## Layout operations and the scatter, read at an entry -/

/-- A scalar constant spread over a shape. -/
theorem splat_apply {s : Shape} (bc : (⟨0, ![]⟩ : Shape).BroadcastsInDim s (![] : Fin 0 → Fin s.rank)) (w : BitVec 32)
    (i : s.Idx) : broadcastInDim s ![] bc (constant (F := Ideal) ⟨0, ![]⟩ .f32 w) i = Ideal.ofBits .f32 w := rfl

/-- The host's quotient at an entry. -/
theorem hostDivf_apply {s : Shape} {φ : FTy} (a b : FVec Ideal s φ) (i : s.Idx) :
    Host.divf (F := Ideal) a b i = Ideal.div (a i) (b i) := rfl

/-- The word of one. -/
theorem one_word : Ideal.ofBits .f32 0x3F800000#32 = 1 := by
  simp [Ideal.ofBits, Ideal.ieee]
  rw [← EReal.coe_mul]
  norm_num

/-- A column `[a, 1]` spread over `[a, b]`. -/
theorem col_apply {a b : Nat} (ha : a ≠ 1)
    (bc : (⟨2, ![a, 1]⟩ : Shape).BroadcastsInDim ⟨2, ![a, b]⟩ (![0, 1] : Fin 2 → Fin 2))
    (v : (⟨2, ![a, 1]⟩ : Shape).Idx → EReal) (p : Fin a) (c : Fin b) :
    broadcastInDim ⟨2, ![a, b]⟩ ![0, 1] bc v (ix2 p c) = v (ix2 p (0 : Fin 1)) :=
  broadcastInDim_apply _ bc v _ _ (fun x => match x with
    | ⟨0, _⟩ => by show p.val = if a = 1 then 0 else p.val; rw [if_neg ha]
    | ⟨1, _⟩ => by show 0 = if (1 : Nat) = 1 then 0 else c.val; rw [if_pos rfl])

/-- A vector `[b]` laid as a row `[1, b]` and spread over `[a, b]`. -/
theorem row_apply {a b : Nat} (hb : b ≠ 1)
    (bc1 : (⟨1, ![b]⟩ : Shape).BroadcastsInDim ⟨2, ![1, b]⟩ (![1] : Fin 1 → Fin 2))
    (bc2 : (⟨2, ![1, b]⟩ : Shape).BroadcastsInDim ⟨2, ![a, b]⟩ (![0, 1] : Fin 2 → Fin 2))
    (v : (⟨1, ![b]⟩ : Shape).Idx → EReal) (p : Fin a) (c : Fin b) :
    broadcastInDim ⟨2, ![a, b]⟩ ![0, 1] bc2 (broadcastInDim ⟨2, ![1, b]⟩ ![1] bc1 v) (ix2 p c) = v (ix1 c) := by
  rw [broadcastInDim_apply _ bc2 _ (ix2 p c) (ix2 (0 : Fin 1) c) (fun x => match x with
    | ⟨0, _⟩ => by show 0 = if (1 : Nat) = 1 then 0 else p.val; rw [if_pos rfl]
    | ⟨1, _⟩ => by show c.val = if b = 1 then 0 else c.val; rw [if_neg hb])]
  exact broadcastInDim_apply _ bc1 v _ (ix1 c) (fun x => match x with
    | ⟨0, _⟩ => by show c.val = if b = 1 then 0 else c.val; rw [if_neg hb])

/-- The member nodes of graph `g`: the nodes whose graph number, read signed, is `g`. -/
def members (idx : IVec ⟨2, ![100000, 1]⟩ 32) (g : Fin 1000) : Finset (Fin 100000) :=
  Finset.univ.filter fun n => LibScatterRows.rowOf? 1000 (idx (ix2 n (0 : Fin 1))) = some g

/-- Rows of a node array summed into the rows of a graph array, at `(g, c)`. -/
theorem pool_apply {C : Nat} (d : ScatterDims ⟨2, ![1000, C]⟩ ⟨2, ![100000, 1]⟩ ⟨2, ![100000, C]⟩)
    (wf : ScatterDims.WF ⟨2, ![1000, C]⟩ ⟨2, ![100000, 1]⟩ ⟨2, ![100000, C]⟩ [1] [0] [0] 1)
    (hd : d = LibScatterRows.rowsDims 1000 C 100000 wf)
    (z : (⟨2, ![1000, C]⟩ : Shape).Idx → EReal) (idx : IVec ⟨2, ![100000, 1]⟩ 32)
    (u : (⟨2, ![100000, C]⟩ : Shape).Idx → EReal) (g : Fin 1000) (c : Fin C) :
    Host.scatterAdd (F := Ideal) (φ := .f32) d z idx u (ix2 g c) = z (ix2 g c) + ∑ n ∈ members idx g, u (ix2 n c) := by
  subst hd
  exact LibEdgeSums.scatterAdd_rows_apply wf z idx u g c

/-- The count of graph `g`'s nodes, never let below one, as the programs compute it: ones pooled into zeros, then `max · 1`. -/
def count (idx : IVec ⟨2, ![100000, 1]⟩ 32) (g : Fin 1000) : EReal :=
  max (0 + ∑ _n ∈ members idx g, (1 : EReal)) 1

/-! ## The kernel program's last stretch -/

section K
open Cert.KernelIdeal Cert.KernelIdeal.Gen

/-- The kernel program's last stretch: pool the projected features `y` by the graph numbers `batch`, divide by the counts, add the bias. -/
def tailK (y : FVec Ideal S100000x6 .f32) (batch : IVec S100000 32) (bl : FVec Ideal S6 .f32) : FVec Ideal S1000x6 .f32 :=
  addf
    (Host.divf (F := Ideal)
      (Host.scatterAdd (F := Ideal) (φ := .f32) scatter_S1000x6_S100000x1_S100000x6_1_0_0_1
        (broadcastInDim S1000x6 ![] bcast_S_S1000x6 (constant (F := Ideal) S_ .f32 0x00000000#32))
        (broadcastInDim S100000x1 ![0] bcast_S100000_S100000x1_0 batch) y)
      (broadcastInDim S1000x6 ![0, 1] bcast_S1000x1_S1000x6_0_1
        (maximumf
          (Host.scatterAdd (F := Ideal) (φ := .f32) scatter_S1000x1_S100000x1_S100000x1_1_0_0_1
            (broadcastInDim S1000x1 ![] bcast_S_S1000x1 (constant (F := Ideal) S_ .f32 0x00000000#32))
            (broadcastInDim S100000x1 ![0] bcast_S100000_S100000x1_0 batch)
            (broadcastInDim S100000x1 ![] bcast_S_S100000x1 (constant (F := Ideal) S_ .f32 0x3F800000#32)))
          (broadcastInDim S1000x1 ![] bcast_S_S1000x1 (constant (F := Ideal) S_ .f32 0x3F800000#32)))))
    (broadcastInDim S1000x6 ![0, 1] bcast_S1x6_S1000x6_0_1 (broadcastInDim S1x6 ![1] bcast_S6_S1x6_1 bl))

theorem tailK_apply (y : FVec Ideal S100000x6 .f32) (batch : IVec S100000 32) (bl : FVec Ideal S6 .f32) (g : Fin 1000) (o : Fin 6) :
    tailK y batch bl (ix2 g o)
      = Ideal.div (0 + ∑ n ∈ members (broadcastInDim S100000x1 ![0] bcast_S100000_S100000x1_0 batch) g, y (ix2 n o))
          (count (broadcastInDim S100000x1 ![0] bcast_S100000_S100000x1_0 batch) g) + bl (ix1 o) := by
  unfold tailK count
  generalize broadcastInDim S100000x1 ![0] bcast_S100000_S100000x1_0 batch = idx
  rw [addf_apply, hostDivf_apply,
    pool_apply scatter_S1000x6_S100000x1_S100000x6_1_0_0_1 scatter_S1000x6_S100000x1_S100000x6_1_0_0_1_wf rfl,
    col_apply (by decide), maximumf_apply,
    pool_apply scatter_S1000x1_S100000x1_S100000x1_1_0_0_1 scatter_S1000x1_S100000x1_S100000x1_1_0_0_1_wf rfl,
    row_apply (by decide)]
  show Ideal.div (Ideal.ofBits .f32 0x00000000#32 + ∑ n ∈ members idx g, y (ix2 n o))
      (max (Ideal.ofBits .f32 0x00000000#32 + ∑ _n ∈ members idx g, Ideal.ofBits .f32 0x3F800000#32)
        (Ideal.ofBits .f32 0x3F800000#32)) + bl (ix1 o) = _
  rw [Ideal.ofBits_zero_f32, one_word]

end K

/-! ## The reference's last stretch -/

section R
open Cert.ReferenceIdeal Cert.ReferenceIdeal.Gen Cert.ReferenceIdeal.Read

/-- The reference's last stretch: pool the features `h` by the graph numbers, divide by the counts, project, add the bias. -/
def tailR (h : FVec Ideal S100000x128 .f32) (batch : IVec S100000 32) (Wl : FVec Ideal S128x6 .f32) (bl : FVec Ideal S6 .f32) :
    FVec Ideal S1000x6 .f32 :=
  addf
    (Host.dotGeneral (F := Ideal) dot_S1000x128_S128x6_S1000x6_1_0_0_1_n_n none
      (Host.divf (F := Ideal)
        (Host.scatterAdd (F := Ideal) (φ := .f32) scatter_S1000x128_S100000x1_S100000x128_1_0_0_1
          (broadcastInDim S1000x128 ![] bcast_S_S1000x128 (constant (F := Ideal) S_ .f32 0x00000000#32))
          (broadcastInDim S100000x1 ![0] bcast_S100000_S100000x1_0 batch) h)
        (broadcastInDim S1000x128 ![0, 1] bcast_S1000x1_S1000x128_0_1
          (maximumf
            (Host.scatterAdd (F := Ideal) (φ := .f32) scatter_S1000x1_S100000x1_S100000x1_1_0_0_1
              (broadcastInDim S1000x1 ![] bcast_S_S1000x1 (constant (F := Ideal) S_ .f32 0x00000000#32))
              (broadcastInDim S100000x1 ![0] bcast_S100000_S100000x1_0 batch)
              (broadcastInDim S100000x1 ![] bcast_S_S100000x1 (constant (F := Ideal) S_ .f32 0x3F800000#32)))
            (broadcastInDim S1000x1 ![] bcast_S_S1000x1 (constant (F := Ideal) S_ .f32 0x3F800000#32)))))
      Wl)
    (broadcastInDim S1000x6 ![0, 1] bcast_S1x6_S1000x6_0_1 (broadcastInDim S1x6 ![1] bcast_S6_S1x6_1 bl))

theorem tailR_apply (h : FVec Ideal S100000x128 .f32) (batch : IVec S100000 32) (Wl : FVec Ideal S128x6 .f32) (bl : FVec Ideal S6 .f32)
    (g : Fin 1000) (o : Fin 6) :
    tailR h batch Wl bl (ix2 g o)
      = ∑ e : Fin 128, Ideal.div (0 + ∑ n ∈ members (broadcastInDim S100000x1 ![0] bcast_S100000_S100000x1_0 batch) g, h (ix2 n e))
          (count (broadcastInDim S100000x1 ![0] bcast_S100000_S100000x1_0 batch) g) * Wl (ix2 e o) + bl (ix1 o) := by
  unfold tailR count
  generalize broadcastInDim S100000x1 ![0] bcast_S100000_S100000x1_0 batch = idx
  rw [addf_apply, Cert.LibHostDot.dotGeneral_apply _ rfl rfl lhs_main_v59_0 lhs_main_v59_1 rhs_main_v59_0 rhs_main_v59_1,
    row_apply (by decide)]
  refine congrArg (fun t => t + bl (ix1 o)) (Finset.sum_congr rfl fun e _ => ?_)
  refine congrArg (fun t => t * Wl (ix2 e o)) ?_
  rw [hostDivf_apply,
    pool_apply scatter_S1000x128_S100000x1_S100000x128_1_0_0_1 scatter_S1000x128_S100000x1_S100000x128_1_0_0_1_wf rfl,
    col_apply (by decide), maximumf_apply,
    pool_apply scatter_S1000x1_S100000x1_S100000x1_1_0_0_1 scatter_S1000x1_S100000x1_S100000x1_1_0_0_1_wf rfl]
  show Ideal.div (Ideal.ofBits .f32 0x00000000#32 + ∑ n ∈ members idx g, h (ix2 n e))
      (max (Ideal.ofBits .f32 0x00000000#32 + ∑ _n ∈ members idx g, Ideal.ofBits .f32 0x3F800000#32)
        (Ideal.ofBits .f32 0x3F800000#32)) = _
  rw [Ideal.ofBits_zero_f32, one_word]

end R

/-! ## The law -/

/-- Pooling the projected features is projecting the pooled features, when features and weights are real. -/
theorem tail_law (h : Arr2 100000 128) (batch : IVec ⟨1, ![100000]⟩ 32) (Wl : Arr2 128 6) (bl : Arr1 6)
    (hh : ∀ i, IsReal (h i)) (hW : ∀ i, IsReal (Wl i)) :
    tailK (proj h Wl) batch bl = tailR h batch Wl bl := by
  funext i
  obtain ⟨g, o, rfl⟩ : ∃ (g : Fin 1000) (o : Fin 6), i = ix2 g o := ⟨i 0, i 1, eq_ix2 i⟩
  rw [tailK_apply, tailR_apply]
  refine congrArg (fun t => t + bl (ix1 o)) ?_
  unfold count
  obtain ⟨hc, hc0⟩ := count_real (members (broadcastInDim Cert.KernelIdeal.S100000x1 ![0] Cert.KernelIdeal.Gen.bcast_S100000_S100000x1_0 batch) g)
  rw [hc]
  simp only [proj_apply]
  exact mean_proj _ (fun n e => h (ix2 n e)) (fun e => Wl (ix2 e o)) _ hc0 (fun n e => hh _) (fun e => hW _)

end Cert.Gin.Pool

end
-- ==== Proof.RealNet.lean ====
/-
  A network fed reals computes reals.

  A node's neighbour sum is the zero row plus a finite sum of rows of the features (the gather reads one row per edge, the
  accumulating scatter adds the rows aimed at the node): real when the features are. A layer is sums of products of such
  numbers with the weights, a bias, and maxima with zero: real when features, neighbour sums, weights and biases are.
-/
import proofs.«103897_j22316650070138_2_alg».proof.Proof.RefValue
import proofs.«103897_j22316650070138_2_alg».proof.Proof.Reals
import proofs.«103897_j22316650070138_2_alg».proof.Proof.LibEdgeSums

noncomputable section

namespace Cert.Gin

open Idealize.ShloMosaic Idealize.ShloMosaic.ValueIdx

theorem hid_real (h agg : Arr2 100000 128) (Wa : Arr2 128 128) (ba : Arr1 128)
    (hh : ∀ i, IsReal (h i)) (hagg : ∀ i, IsReal (agg i)) (hWa : ∀ i, IsReal (Wa i)) (hba : ∀ i, IsReal (ba i))
    (n : Fin 100000) (k : Fin 128) : IsReal (hid h agg Wa ba n k) :=
  IsReal.max (IsReal.add (IsReal.sum _ _ fun _ _ => IsReal.mul (IsReal.add (hagg _) (hh _)) (hWa _)) (hba _)) IsReal.zero

theorem mlp_real (h agg : Arr2 100000 128) (Wa : Arr2 128 128) (ba : Arr1 128) (Wb : Arr2 128 128) (bb : Arr1 128)
    (hh : ∀ i, IsReal (h i)) (hagg : ∀ i, IsReal (agg i)) (hWa : ∀ i, IsReal (Wa i)) (hba : ∀ i, IsReal (ba i))
    (hWb : ∀ i, IsReal (Wb i)) (hbb : ∀ i, IsReal (bb i)) (n : Fin 100000) (e : Fin 128) :
    IsReal (mlp h agg Wa ba Wb bb n e) :=
  IsReal.add (IsReal.sum _ _ fun _ _ => IsReal.mul (hid_real h agg Wa ba hh hagg hWa hba _ _) (hWb _)) (hbb _)

theorem layer1_real (h agg : Arr2 100000 128) (Wa : Arr2 128 128) (ba : Arr1 128) (Wb : Arr2 128 128) (bb : Arr1 128)
    (hh : ∀ i, IsReal (h i)) (hagg : ∀ i, IsReal (agg i)) (hWa : ∀ i, IsReal (Wa i)) (hba : ∀ i, IsReal (ba i))
    (hWb : ∀ i, IsReal (Wb i)) (hbb : ∀ i, IsReal (bb i)) (i : (⟨2, ![100000, 128]⟩ : Shape).Idx) :
    IsReal (layer1 h agg Wa ba Wb bb i) :=
  IsReal.max (mlp_real h agg Wa ba Wb bb hh hagg hWa hba hWb hbb _ _) IsReal.zero

theorem layer2_real (h agg : Arr2 100000 128) (Wa : Arr2 128 128) (ba : Arr1 128) (Wb : Arr2 128 128) (bb : Arr1 128)
    (hh : ∀ i, IsReal (h i)) (hagg : ∀ i, IsReal (agg i)) (hWa : ∀ i, IsReal (Wa i)) (hba : ∀ i, IsReal (ba i))
    (hWb : ∀ i, IsReal (Wb i)) (hbb : ∀ i, IsReal (bb i)) (i : (⟨2, ![100000, 128]⟩ : Shape).Idx) :
    IsReal (layer2 h agg Wa ba Wb bb i) :=
  mlp_real h agg Wa ba Wb bb hh hagg hWa hba hWb hbb _ _

/-- An entry of a neighbour sum — rows of `h` gathered by `src` and added into the rows named by `dst`, over a start array
    `z` — is real when `z` and `h` are. -/
theorem agg_entry_real {N C K : Nat} (hN : 0 < N)
    (ds : ScatterDims ⟨2, ![N, C]⟩ ⟨2, ![K, 1]⟩ ⟨2, ![K, C]⟩)
    (wfs : ScatterDims.WF ⟨2, ![N, C]⟩ ⟨2, ![K, 1]⟩ ⟨2, ![K, C]⟩ [1] [0] [0] 1)
    (hds : ds = LibScatterRows.rowsDims N C K wfs)
    (dg : GatherDims ⟨2, ![N, C]⟩ ⟨2, ![K, 1]⟩ ⟨2, ![K, C]⟩)
    (wfg : GatherDims.WF ⟨2, ![N, C]⟩ ⟨2, ![K, 1]⟩ ⟨2, ![K, C]⟩ [1] [0] [] [0] [] 1 ![1, C])
    (hdg : dg = LibGather.rowsDims N C K wfg)
    (z h : (⟨2, ![N, C]⟩ : Shape).Idx → EReal) (dst src : IVec ⟨2, ![K, 1]⟩ 32)
    (hz : ∀ i, IsReal (z i)) (hh : ∀ i, IsReal (h i)) (n : Fin N) (j : Fin C) :
    IsReal (Host.scatterAdd (F := Ideal) (φ := .f32) ds z dst (Host.gather dg h src) (ix2 n j)) := by
  subst hds hdg
  rw [show Host.scatterAdd (F := Ideal) (φ := .f32) (LibScatterRows.rowsDims N C K wfs) z dst
        (Host.gather (LibGather.rowsDims N C K wfg) h src) (ix2 n j) = _
      from LibEdgeSums.scatterAdd_rows_apply wfs z dst _ n j]
  refine IsReal.add (hz _) (IsReal.sum _ _ fun k _ => ?_)
  rw [LibGather.gather_rows_apply hN wfg]
  exact hh _

section
open Cert.ReferenceIdeal Cert.ReferenceIdeal.Gen Cert.ReferenceIdeal.Read Cert.ReferenceIdeal.RefValue

/-- The neighbour sum of real features is real. -/
theorem aggR_real (h : (⟨S100000x128, .f32⟩ : BufTy).Contents (Elt Ideal)) (x1 : (⟨S2x1600000, .i32⟩ : BufTy).Contents (Elt Ideal))
    (hh : ∀ i, IsReal (h i)) (i : S100000x128.Idx) : IsReal (aggR h x1 i) := by
  obtain ⟨n, j, rfl⟩ : ∃ (n : Fin 100000) (j : Fin 128), i = ix2 n j := ⟨i 0, i 1, eq_ix2 i⟩
  unfold aggR
  generalize val_main_v12 (F := Ideal) x1 = dst
  generalize val_main_v9 (F := Ideal) x1 = src
  refine agg_entry_real (Nat.succ_pos _) scatter_S100000x128_S1600000x1_S1600000x128_1_0_0_1
    scatter_S100000x128_S1600000x1_S1600000x128_1_0_0_1_wf rfl
    gather_S100000x128_S1600000x1_S1600000x128_1_0_n_n_0_1_1128
    gather_S100000x128_S1600000x1_S1600000x128_1_0_n_n_0_1_1128_wf rfl
    (val_main_v11 (F := Ideal)) h dst src (fun i => ?_) hh n j
  show IsReal (Ideal.ofBits .f32 0x00000000#32)
  rw [Ideal.ofBits_zero_f32]
  exact IsReal.zero

end

end Cert.Gin

end
-- ==== Proof.Bridge.lean ====
/-
  Both programs compute one function of the thirteen arguments.

  With `agg h` the neighbour sum of the features `h` along the edges, `H1 = layer1 x (agg x) …` and
  `H2 = layer2 H1 (agg H1) …`, the reference's result is `tail H2` (pool, divide by the counts, project, add the bias).
  The kernel's program computes the same `agg` (it rounds the features on the way into the gather, which is the identity
  on extended reals), its two regions leave `H1` and the projection of `H2` in their output arrays, and its last stretch
  pools the projected features: the same `tail H2` by the law of the mean, once `H2` and the projection's weights are real.
-/
import proofs.«103897_j22316650070138_2_alg».proof.Proof.KernelRun
import proofs.«103897_j22316650070138_2_alg».proof.Proof.HostChain
import proofs.«103897_j22316650070138_2_alg».proof.Proof.Region0
import proofs.«103897_j22316650070138_2_alg».proof.Proof.Region1
import proofs.«103897_j22316650070138_2_alg».proof.Proof.RefValue
import proofs.«103897_j22316650070138_2_alg».proof.Proof.Pool
import proofs.«103897_j22316650070138_2_alg».proof.Proof.RealNet

noncomputable section

namespace Cert.Bridge

open Idealize.ShloMosaic Idealize.ShloMosaic.TcCoe Idealize.SL.Sem Idealize.ShloMosaic.ValueIdx Cert.Gin

/-- Rounding to a narrower float type is the identity on extended reals. -/
theorem truncf_id {s : Shape} {φ ψ : FTy} (a : FVec Ideal s φ) (h : ψ.bits < φ.bits) : truncf (F := Ideal) ψ a h = a := rfl

/-- The kernel program's neighbour sum is the reference's. -/
theorem agg_eq (h : Arr2 100000 128) (ei : IVec ⟨2, ![2, 1600000]⟩ 32) :
    Cert.KernelIdeal.Chain.aggK h ei = Cert.ReferenceIdeal.RefValue.aggR h ei := by
  unfold Cert.KernelIdeal.Chain.aggK Cert.KernelIdeal.Chain.srcK Cert.KernelIdeal.Chain.dstK Cert.ReferenceIdeal.RefValue.aggR
  rfl

/-- The kernel program's last stretch, under its two names. -/
theorem tail_eq (y : Arr2 100000 6) (batch : IVec ⟨1, ![100000]⟩ 32) (bl : Arr1 6) :
    Cert.KernelIdeal.Chain.tailK y batch bl = Pool.tailK y batch bl := rfl

/-- The result both programs compute, as a function of the arguments. -/
def result (x0 : Arr2 100000 128) (x1 : IVec ⟨2, ![2, 1600000]⟩ 32) (x2 : IVec ⟨1, ![100000]⟩ 32)
    (x3 : Arr2 128 128) (x4 : Arr1 128) (x5 : Arr2 128 128) (x6 : Arr1 128)
    (x7 : Arr2 128 128) (x8 : Arr1 128) (x9 : Arr2 128 128) (x10 : Arr1 128) (x11 : Arr2 128 6) (x12 : Arr1 6) : Arr2 1000 6 :=
  Pool.tailR
    (layer2 (layer1 x0 (Cert.ReferenceIdeal.RefValue.aggR x0 x1) x3 x4 x5 x6)
      (Cert.ReferenceIdeal.RefValue.aggR (layer1 x0 (Cert.ReferenceIdeal.RefValue.aggR x0 x1) x3 x4 x5 x6) x1) x7 x8 x9 x10)
    x2 x11 x12

/-- The reference's term is `result`. -/
theorem ref_result (x0 : Arr2 100000 128) (x1 : IVec ⟨2, ![2, 1600000]⟩ 32) (x2 : IVec ⟨1, ![100000]⟩ 32)
    (x3 : Arr2 128 128) (x4 : Arr1 128) (x5 : Arr2 128 128) (x6 : Arr1 128)
    (x7 : Arr2 128 128) (x8 : Arr1 128) (x9 : Arr2 128 128) (x10 : Arr1 128) (x11 : Arr2 128 6) (x12 : Arr1 6) :
    Cert.ReferenceIdeal.Read.val_main_v62 (F := Ideal) x0 x1 x2 x3 x4 x5 x6 x7 x8 x9 x10 x11 x12
      = result x0 x1 x2 x3 x4 x5 x6 x7 x8 x9 x10 x11 x12 := by
  have e : Cert.ReferenceIdeal.Read.val_main_v62 (F := Ideal) x0 x1 x2 x3 x4 x5 x6 x7 x8 x9 x10 x11 x12
      = Pool.tailR (Cert.ReferenceIdeal.Read.val_main_v47 (F := Ideal) x0 x1 x3 x4 x5 x6 x7 x8 x9 x10) x2 x11 x12 := rfl
  rw [e, Cert.ReferenceIdeal.RefValue.v47_eq, Cert.ReferenceIdeal.RefValue.v26_eq]
  rfl

/-- The kernel program's final result array is `result` of the launch memory's arguments, when the float arguments are real. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD)
    (h0 : ∀ i, IsReal ((m ((c.tc : Thread Cert.KernelIdeal.nD Cert.KernelIdeal.τ).loc Cert.KernelIdeal.main_arg0)) i)) (h3 : ∀ i, IsReal ((m ((c.tc : Thread Cert.KernelIdeal.nD Cert.KernelIdeal.τ).loc Cert.KernelIdeal.main_arg3)) i))
    (h4 : ∀ i, IsReal ((m ((c.tc : Thread Cert.KernelIdeal.nD Cert.KernelIdeal.τ).loc Cert.KernelIdeal.main_arg4)) i)) (h5 : ∀ i, IsReal ((m ((c.tc : Thread Cert.KernelIdeal.nD Cert.KernelIdeal.τ).loc Cert.KernelIdeal.main_arg5)) i))
    (h6 : ∀ i, IsReal ((m ((c.tc : Thread Cert.KernelIdeal.nD Cert.KernelIdeal.τ).loc Cert.KernelIdeal.main_arg6)) i)) (h7 : ∀ i, IsReal ((m ((c.tc : Thread Cert.KernelIdeal.nD Cert.KernelIdeal.τ).loc Cert.KernelIdeal.main_arg7)) i))
    (h8 : ∀ i, IsReal ((m ((c.tc : Thread Cert.KernelIdeal.nD Cert.KernelIdeal.τ).loc Cert.KernelIdeal.main_arg8)) i)) (h9 : ∀ i, IsReal ((m ((c.tc : Thread Cert.KernelIdeal.nD Cert.KernelIdeal.τ).loc Cert.KernelIdeal.main_arg9)) i))
    (h10 : ∀ i, IsReal ((m ((c.tc : Thread Cert.KernelIdeal.nD Cert.KernelIdeal.τ).loc Cert.KernelIdeal.main_arg10)) i)) (h11 : ∀ i, IsReal ((m ((c.tc : Thread Cert.KernelIdeal.nD Cert.KernelIdeal.τ).loc Cert.KernelIdeal.main_arg11)) i)) :
    Cert.KernelIdeal.Gen.W5 (F := Ideal) m ρ c (Proc.devRef .tc Cert.KernelIdeal.main_v47)
      = result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)) := by
  rw [Cert.KernelIdeal.Chain.W5_v47, Cert.KernelIdeal.RegionValue.region1_value, Cert.KernelIdeal.Chain.V3_v32,
    Cert.KernelIdeal.Chain.V3_v21, Cert.KernelIdeal.RegionValue.region0_value, Cert.KernelIdeal.Chain.V1_arg0,
    Cert.KernelIdeal.Chain.V1_v20, Cert.KernelIdeal.Chain.V1_v4, Cert.KernelIdeal.Chain.V1_arg4, Cert.KernelIdeal.Chain.V1_v5,
    Cert.KernelIdeal.Chain.V1_arg6, Cert.KernelIdeal.Chain.V3_v6, Cert.KernelIdeal.Chain.V3_arg8, Cert.KernelIdeal.Chain.V3_v7,
    Cert.KernelIdeal.Chain.V3_arg10, Cert.KernelIdeal.Chain.V3_v8]
  simp only [truncf_id]
  rw [agg_eq, agg_eq, tail_eq]
  have hH1 := layer1_real _ _ _ _ _ _ h0 (aggR_real _ (m ((c.tc : Thread Cert.KernelIdeal.nD Cert.KernelIdeal.τ).loc Cert.KernelIdeal.main_arg1)) h0) h3 h4 h5 h6
  exact Pool.tail_law _ _ _ _ (layer2_real _ _ _ _ _ _ hH1 (aggR_real _ (m ((c.tc : Thread Cert.KernelIdeal.nD Cert.KernelIdeal.τ).loc Cert.KernelIdeal.main_arg1)) hH1) h7 h8 h9 h10) h11

end Cert.Bridge

end
-- ==== Proof.lean ====
/-
  A two-layer graph network with a mean pool and a linear read-out, computed two ways.

  The reference gathers and sums each node's neighbours, applies a two-map layer, rectifies, does the same once more
  without the last rectification, averages the nodes of each graph and projects the averages onto six outputs. The kernel's
  program does the two layers in two tiled regions (4000 nodes to a block; every product contracts its whole axis of 128,
  so no sum is regrouped), rounds to a narrower float type in places (the identity on extended reals), and projects each node
  BEFORE averaging. The two results are equal entry by entry on the extended reals when the float arguments are finite:
  averaging commutes with the projection over real numbers, and a network fed real numbers computes real numbers.

  The three frames are the generated ones (the reference's is its generated run with the result dropped); nothing was
  rewritten between the kernel's program and its idealization, so that claim is trivial; the algebraic claim puts the kernel
  program's run with its result named beside the reference's generated run, both at one function `result` of the arguments.
-/
import proofs.«103897_j22316650070138_2_alg».proof.Defs
import proofs.«103897_j22316650070138_2_alg».proof.Proof.Gen.Kernel
import proofs.«103897_j22316650070138_2_alg».proof.Proof.Gen.Kernel.Frame
import proofs.«103897_j22316650070138_2_alg».proof.Proof.Gen.KernelIdeal
import proofs.«103897_j22316650070138_2_alg».proof.Proof.Gen.KernelIdeal.Frame
import proofs.«103897_j22316650070138_2_alg».proof.Proof.Gen.ReferenceIdeal
import proofs.«103897_j22316650070138_2_alg».proof.Proof.Gen.ReferenceIdeal.Run
import proofs.«103897_j22316650070138_2_alg».proof.Proof.Gen.ReferenceIdeal.Read
import proofs.«103897_j22316650070138_2_alg».proof.Proof.Gen.Pre_finite_inputs
import proofs.«103897_j22316650070138_2_alg».proof.Proof.Finite
import proofs.«103897_j22316650070138_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten between the kernel's program and its idealization. -/
theorem preserves : Cert.preserves_Kernel_KernelIdeal := trivial

/-- Both programs end with `result` of the arguments: the kernel's by its run and the law of the mean (the arguments are
    real under the precondition), the reference's by its run read stage by stage. -/
theorem algebraic : Cert.algebraic_KernelIdeal_ReferenceIdeal := by
  intro m ρ m' ρ' hpre hagree
  refine ⟨fun c => Cert.Bridge.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · refine (θ_run Cert.KernelIdeal.defs _ _).mono (fun r h c => ⟨(h c).1.trans ?_, (h c).2⟩)
      (Cert.KernelIdeal.Chain.run_named m ρ)
    obtain ⟨h0, h3, h4, h5, h6, h7, h8, h9, h10, h11, _⟩ :=
      Cert.Gin.Finite.inputs_real _ _ _ _ _ _ _ _ _ _ _ _ _ (hpre c)
    exact Cert.Bridge.kernel_result m ρ c h0 h3 h4 h5 h6 h7 h8 h9 h10 h11
  · refine (θ_run Cert.ReferenceIdeal.defs _ _).mono (fun r h c => ⟨?_, (h c).2⟩)
      (Cert.ReferenceIdeal.Value.run (F := Ideal) m' ρ')
    obtain ⟨a0, a1, a2, a3, a4, a5, a6, a7, a8, a9, a10, a11, a12⟩ := hagree c
    rw [(h c).1, Cert.ReferenceIdeal.Read.val_main_v62_eq, Cert.Bridge.ref_result, a0, a1, a2, a3, a4, a5, a6, a7, a8, a9,
      a10, a11, a12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
